-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x256 .f32) (main_arg6 : FVec F S128 .f32) (main_arg7 : FVec F S64x256 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x256 .f32) (main_arg4 : FVec F S128 .f32) (main_arg5 : FVec F S128x256 .f32) (main_arg6 : FVec F S128 .f32) (main_arg7 : FVec F S64x256 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩
abbrev S2000x256 : Shape := ⟨2, ![2000, 256]⟩
abbrev S2000x128 : Shape := ⟨2, ![2000, 128]⟩
abbrev S256x64 : Shape := ⟨2, ![256, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 106
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S64x256, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S256x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S800000x1, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x256, .f32⟩
  | .hbm, ⟨72, _⟩ => ⟨S256x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x1, .f32⟩
  | .hbm, ⟨85, _⟩ => ⟨S800000x128, .f32⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S_, .f32⟩
  | .hbm, ⟨92, _⟩ => ⟨S50000, .f32⟩
  | .hbm, ⟨93, _⟩ => ⟨S800000x1, .i32⟩
  | .hbm, ⟨94, _⟩ => ⟨S50000, .f32⟩
  | .hbm, ⟨95, _⟩ => ⟨S_, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S50000x256, .f32⟩
  | .hbm, ⟨103, _⟩ => ⟨S256x64, .f32⟩
  | .hbm, ⟨104, _⟩ => ⟨S1x64, .f32⟩
  | .hbm, ⟨105, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x256, .f32⟩
  | .local _ .vmem, ⟨7, _⟩ => ⟨S2000x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x256, .f32⟩
  | .local _ .vmem, ⟨13, _⟩ => ⟨S2000x256, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  transposes_S64x256_S256x64_1_0 : S64x256.Transposes [1, 0] S256x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S64x256 : Shape := ⟨2, ![64, 256]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S256x128 : Shape := ⟨2, ![256, 128]⟩
abbrev S1x128 : Shape := ⟨2, ![1, 128]⟩
abbrev S256x64 : Shape := ⟨2, ![256, 64]⟩
abbrev S50000x64 : Shape := ⟨2, ![50000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S64x256, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S256x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S800000x1, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x256, .f32⟩
  | .hbm, ⟨77, _⟩ => ⟨S256x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x128, .f32⟩
  | .hbm, ⟨94, _⟩ => ⟨S800000x1, .f32⟩
  | .hbm, ⟨95, _⟩ => ⟨S800000x128, .f32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S_, .f32⟩
  | .hbm, ⟨102, _⟩ => ⟨S50000, .f32⟩
  | .hbm, ⟨103, _⟩ => ⟨S800000x1, .i32⟩
  | .hbm, ⟨104, _⟩ => ⟨S50000, .f32⟩
  | .hbm, ⟨105, _⟩ => ⟨S_, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S50000x256, .f32⟩
  | .hbm, ⟨113, _⟩ => ⟨S256x64, .f32⟩
  | .hbm, ⟨114, _⟩ => ⟨S50000x64, .f32⟩
  | .hbm, ⟨115, _⟩ => ⟨S1x64, .f32⟩
  | .hbm, ⟨116, _⟩ => ⟨S50000x64, .f32⟩
  | .hbm, ⟨117, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call3_cst : Ref sig .tc := ⟨.hbm, 82, rfl⟩
abbrev main_call3_v0 : Ref sig .tc := ⟨.hbm, 83, rfl⟩
abbrev main_v57 : Ref sig .tc := ⟨.hbm, 84, rfl⟩
abbrev main_c_8 : Ref sig .tc := ⟨.hbm, 85, rfl⟩
abbrev main_v58 : Ref sig .tc := ⟨.hbm, 86, rfl⟩
abbrev main_v59 : Ref sig .tc := ⟨.hbm, 87, rfl⟩
abbrev main_c_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_call4_v0 : Ref sig .tc := ⟨.hbm, 106, rfl⟩
abbrev main_call4_v1 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with its RESULT in the post: every weakly fair execution of @main terminates, nothing
  faulting, the result array ends holding what the fold of @main's segments leaves at it (`Gen.W12`: the launch
  memory, through each stretch of host operations and each pallas_call's write-backs in program order), and the nine
  argument arrays end as launched.  @main is the run of its twelve segments in order (a stretch of host operations
  from its boundary's contents, or a pallas_call's pipeline); the last thread state holds every unscoped buffer at
  the fold's final contents, and the result buffer is read off it beside the arguments.
-/
import proofs.«166120_j80522046866010_1_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the fold's final contents. -/
theorem run_out : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v75 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.Sage.KernelRun

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Layers.lean ====
/-
  Three GraphSAGE layers as functions of whole arrays, over the extended reals.

  One layer takes the node features h [50000, d] to  relu( [h | A h] · Wᵀ + b ), where A is the weighted mean over
  incoming edges:  (A h)[v] = (Σ_{e : row e = v} w_e · h[col e]) / max(1, Σ_{e : row e = v} w_e).
  The last layer has no relu.  Both programs compute [h | A h] by the same chain of host operations (slices of the
  edge index, wrap of negative indices, gather, scale, scatter-add, clip, divide, concatenate); it is named here once,
  `aggCat`, and never opened.  What differs between the programs is only how the dense part is spelt: a
  `dot_general` of the whole [50000, 256] matrix with Wᵀ plus a bias spread over the rows, against a matrix product
  into a zero accumulator per block of 2000 rows plus the bias row.  Both are, entry by entry,
      Σ_k h[i,k] · Wᵀ[k,j] + b[j]                                                              (`denseEntry`)
  a finite sum of products of extended reals in one and the same order of summation index, so no law of
  arithmetic beyond unfolding is needed, and in particular nothing about finiteness of the inputs.
-/
import proofs.«166120_j80522046866010_1_alg».proof.Proof.Gen.ReferenceIdeal
import proofs.«166120_j80522046866010_1_alg».proof.Proof.LibDense
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx Cert.ReferenceIdeal Cert.ReferenceIdeal.Gen

/-- The row (destination) index of every edge: row 0 of the edge index. -/
def rowOf (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The column (source) index of every edge: row 1 of the edge index. -/
def colOf (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The weighted sum of the neighbours' features, per destination node: Σ_{e : row e = v} w_e · x[col e] (a negative
    column index wrapped by 50000 first), a scatter-add of the scaled gathered rows into zeros. -/
def sumMsg (x : FVec Ideal S50000x128 .f32) (row col : (⟨S800000, .i32⟩ : BufTy).Contents (Elt Ideal)) (ew : FVec Ideal S800000 .f32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 row) (mulf (Host.gather gather_S50000x128_S800000x1_S800000x128_1_0_n_n_0_1_1128 x (broadcastInDim S800000x1 ![0] bcast_S800000_S800000x1_0 (select (cmpi .slt col (broadcastInDim S800000 ![] bcast_S_S800000 (constantI S_ 32 0#32))) (addi col (broadcastInDim S800000 ![] bcast_S_S800000 (constantI S_ 32 50000#32))) col))) (broadcastInDim S800000x128 ![0, 1] bcast_S800000x1_S800000x128_0_1 (broadcastInDim S800000x1 ![0] bcast_S800000_S800000x1_0 ew)))

/-- The sum of the incoming edges' weights, per destination node. -/
def sumW (row : (⟨S800000, .i32⟩ : BufTy).Contents (Elt Ideal)) (ew : FVec Ideal S800000 .f32) : FVec Ideal S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 row) ew

/-- The maximum of a degree vector with a scalar spread over the nodes (the programs pass the scalar through an identity). -/
def clipBy (one : FVec Ideal S_ .f32) (d : FVec Ideal S50000 .f32) : FVec Ideal S50000 .f32 :=
  maximumf (broadcastInDim S50000 ![] bcast_S_S50000 (id one)) d

/-- The degree clipped below at one. -/
def clip1 (d : FVec Ideal S50000 .f32) : FVec Ideal S50000 .f32 :=
  clipBy (constant S_ .f32 0x3F800000#32) d

/-- [x | s / d]: the features beside the summed messages divided, row by row, by the clipped degree. -/
def catDiv (x s : FVec Ideal S50000x128 .f32) (d : FVec Ideal S50000 .f32) : FVec Ideal S50000x256 .f32 :=
  concatenate S50000x256 1 [⟨S50000x128, x⟩, ⟨S50000x128, (Host.divf s (broadcastInDim S50000x128 ![0, 1] bcast_S50000x1_S50000x128_0_1 (broadcastInDim S50000x1 ![0] bcast_S50000_S50000x1_0 d)))⟩] concatenates_S50000x128_S50000x128_S50000x256_d1

/-- [h | A h] from the features, the edges' two index vectors and the edge weights. -/
def aggRaw (x : FVec Ideal S50000x128 .f32) (row col : (⟨S800000, .i32⟩ : BufTy).Contents (Elt Ideal)) (ew : FVec Ideal S800000 .f32) : FVec Ideal S50000x256 .f32 :=
  catDiv x (sumMsg x row col ew) (clip1 (sumW row ew))

/-- [h | A h] from the features, the edge index and the edge weights. -/
def aggCat (x : FVec Ideal S50000x128 .f32) (ei : (⟨S2x800000, .i32⟩ : BufTy).Contents (Elt Ideal))
    (ew : FVec Ideal S800000 .f32) : FVec Ideal S50000x256 .f32 :=
  aggRaw x (rowOf ei) (colOf ei) ew

/-- Entry (p, q) of a dense layer on the rows of `h`: Σ_k h[p,k] · wt[k,q] + b[q]. -/
def denseEntry {N : Nat} (h : (⟨2, ![50000, 256]⟩ : Shape).Idx → EReal) (wt : (⟨2, ![256, N]⟩ : Shape).Idx → EReal)
    (b : (⟨1, ![N]⟩ : Shape).Idx → EReal) (p : Fin 50000) (q : Fin N) : EReal :=
  (∑ k : Fin 256, h (ix2 p k) * wt (ix2 k q)) + b (ix1 q)

/-- A hidden layer's dense part: relu of the dense layer, the zero being the float zero's value. -/
def denseRelu (h : FVec Ideal S50000x256 .f32) (wt : FVec Ideal S256x128 .f32) (b : FVec Ideal S128 .f32) :
    FVec Ideal S50000x128 .f32 :=
  fun i => max (denseEntry h wt b (i 0) (i 1)) (Ideal.ofBits .f32 0x00000000#32)

/-- The last layer's dense part. -/
def denseLin (h : FVec Ideal S50000x256 .f32) (wt : FVec Ideal S256x64 .f32) (b : FVec Ideal S64 .f32) :
    FVec Ideal S50000x64 .f32 :=
  fun i => denseEntry h wt b (i 0) (i 1)

/-- The reference's dense part before the relu, as printed: `dot_general` with the transposed weights plus the bias
    spread over the rows. -/
def refPre (h : FVec Ideal S50000x256 .f32) (w : FVec Ideal S128x256 .f32) (b : FVec Ideal S128 .f32) :
    FVec Ideal S50000x128 .f32 :=
  addf (Host.dotGeneral dot_S50000x256_S256x128_S50000x128_1_0_0_1_n_n none h (transpose S256x128 [1, 0] w transposes_S128x256_S256x128_1_0)) (broadcastInDim S50000x128 ![0, 1] bcast_S1x128_S50000x128_0_1 (broadcastInDim S1x128 ![1] bcast_S128_S1x128_1 b))

/-- The reference's relu, as printed: `maximum` with zeros. -/
def relu0 (y : FVec Ideal S50000x128 .f32) : FVec Ideal S50000x128 .f32 :=
  maximumf y (broadcastInDim S50000x128 ![] bcast_S_S50000x128 (constant S_ .f32 0x00000000#32))

/-- The reference's dense part of a hidden layer. -/
def refRelu (h : FVec Ideal S50000x256 .f32) (w : FVec Ideal S128x256 .f32) (b : FVec Ideal S128 .f32) :
    FVec Ideal S50000x128 .f32 :=
  relu0 (refPre h w b)

/-- The reference's dense part of the last layer, as printed. -/
def refLin (h : FVec Ideal S50000x256 .f32) (w : FVec Ideal S64x256 .f32) (b : FVec Ideal S64 .f32) :
    FVec Ideal S50000x64 .f32 :=
  addf (Host.dotGeneral dot_S50000x256_S256x64_S50000x64_1_0_0_1_n_n none h (transpose S256x64 [1, 0] w transposes_S64x256_S256x64_1_0)) (broadcastInDim S50000x64 ![0, 1] bcast_S1x64_S50000x64_0_1 (broadcastInDim S1x64 ![1] bcast_S64_S1x64_1 b))

/-- A bias vector spread first to one row and then over all rows reads, at (p, q), its entry q. -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (broadcastInDim_apply ![0, 1] bcast_S1x128_S50000x128_0_1 _ (ix2 p q) (ix2 (0 : Fin 1) q)
      (fun a => by match a with | ⟨0, _⟩ => rfl | ⟨1, _⟩ => rfl)).trans
    (broadcastInDim_apply ![1] bcast_S128_S1x128_1 b (ix2 (0 : Fin 1) q) (ix1 q)
      (fun a => by match a with | ⟨0, _⟩ => rfl))

theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) :=
  (broadcastInDim_apply ![0, 1] bcast_S1x64_S50000x64_0_1 _ (ix2 p q) (ix2 (0 : Fin 1) q)
      (fun a => by match a with | ⟨0, _⟩ => rfl | ⟨1, _⟩ => rfl)).trans
    (broadcastInDim_apply ![1] bcast_S64_S1x64_1 b (ix2 (0 : Fin 1) q) (ix1 q)
      (fun a => by match a with | ⟨0, _⟩ => rfl))

/-- The zeros the reference's relu compares with: the float zero's value at every index. -/
theorem zeros_apply (i : S50000x128.Idx) :
    broadcastInDim S50000x128 ![] bcast_S_S50000x128 (constant (F := Ideal) S_ .f32 0x00000000#32) i
      = Ideal.ofBits .f32 0x00000000#32 :=
  (broadcastInDim_apply (s := S_) ![] bcast_S_S50000x128 (constant (F := Ideal) S_ .f32 0x00000000#32) i (fun a => Fin.elim0 a) (fun a => Fin.elim0 a)).trans (constant_apply _ _)

/-- The reference's hidden dense part is the dense layer's formula, entry by entry: its `dot_general` at (p, q) is the
    sum over k of h[p,k] · Wᵀ[k,q]. -/
theorem refRelu_eq (h : FVec Ideal S50000x256 .f32) (w : FVec Ideal S128x256 .f32) (b : FVec Ideal S128 .f32) :
    refRelu h w b = denseRelu h (transpose S256x128 [1, 0] w transposes_S128x256_S256x128_1_0) b := by
  funext i
  obtain ⟨p, q, rfl⟩ : ∃ (p : Fin 50000) (q : Fin 128), i = ix2 p q := ⟨i 0, i 1, eq_ix2 i⟩
  unfold refRelu relu0 refPre
  rw [maximumf_apply, addf_apply, bias128_apply, zeros_apply]
  simp only [Host.dotGeneral]
  show max (_ + b (ix1 q)) _ = max (denseEntry h _ b p q) _
  unfold denseEntry
  exact congrArg (fun s => max (s + b (ix1 q)) (Ideal.ofBits .f32 0x00000000#32))
    (Cert.LibDense.dotGeneral_plain _ none _ h _ p q)

/-- The reference's last dense part likewise. -/
theorem refLin_eq (h : FVec Ideal S50000x256 .f32) (w : FVec Ideal S64x256 .f32) (b : FVec Ideal S64 .f32) :
    refLin h w b = denseLin h (transpose S256x64 [1, 0] w transposes_S64x256_S256x64_1_0) b := by
  funext i
  obtain ⟨p, q, rfl⟩ : ∃ (p : Fin 50000) (q : Fin 64), i = ix2 p q := ⟨i 0, i 1, eq_ix2 i⟩
  unfold refLin
  rw [addf_apply, bias64_apply]
  simp only [Host.dotGeneral]
  show _ + b (ix1 q) = denseEntry h _ b p q
  unfold denseEntry
  exact congrArg (fun s => s + b (ix1 q))
    (Cert.LibDense.dotGeneral_plain _ none _ h _ p q)

/-- The transposed weights, as both programs compute them before the dense part. -/
abbrev tr128 (w : FVec Ideal S128x256 .f32) : FVec Ideal S256x128 .f32 := transpose S256x128 [1, 0] w transposes_S128x256_S256x128_1_0
abbrev tr64 (w : FVec Ideal S64x256 .f32) : FVec Ideal S256x64 .f32 := transpose S256x64 [1, 0] w transposes_S64x256_S256x64_1_0

/-- The three layers: what both programs compute, as one function of the nine arguments. -/
def net (x : FVec Ideal S50000x128 .f32) (ei : (⟨S2x800000, .i32⟩ : BufTy).Contents (Elt Ideal)) (ew : FVec Ideal S800000 .f32)
    (w0 : FVec Ideal S128x256 .f32) (b0 : FVec Ideal S128 .f32) (w1 : FVec Ideal S128x256 .f32) (b1 : FVec Ideal S128 .f32)
    (w2 : FVec Ideal S64x256 .f32) (b2 : FVec Ideal S64 .f32) : FVec Ideal S50000x64 .f32 :=
  denseLin (aggCat (denseRelu (aggCat (denseRelu (aggCat x ei ew) (tr128 w0) b0) ei ew) (tr128 w1) b1) ei ew) (tr64 w2) b2

/-- The reference's three layers as printed are `net`. -/
theorem ref_net (x : FVec Ideal S50000x128 .f32) (ei : (⟨S2x800000, .i32⟩ : BufTy).Contents (Elt Ideal)) (ew : FVec Ideal S800000 .f32)
    (w0 : FVec Ideal S128x256 .f32) (b0 : FVec Ideal S128 .f32) (w1 : FVec Ideal S128x256 .f32) (b1 : FVec Ideal S128 .f32)
    (w2 : FVec Ideal S64x256 .f32) (b2 : FVec Ideal S64 .f32) :
    refLin (aggCat (refRelu (aggCat (refRelu (aggCat x ei ew) w0 b0) ei ew) w1 b1) ei ew) w2 b2 = net x ei ew w0 b0 w1 b1 w2 b2 := by
  rw [refLin_eq, refRelu_eq, refRelu_eq]
  rfl

end Cert.Sage

end
-- ==== Proof.Body.lean ====
/-
  The three kernel bodies as functions of their loaded blocks, entry by entry.

  Each body loads a block of 2000 rows of [h | A h], the whole transposed weight matrix and the bias row, narrows the
  two matrices to bf16 (the identity on extended reals), multiplies them into a zero accumulator, adds the bias row
  spread over the 2000 rows, and (the first two kernels) takes the maximum with zero.  At row p and column q that is
      max( Σ_k x[p,k] · w[k,q] + bias[0,q] , 0 )        resp. without the maximum.
-/
import proofs.«166120_j80522046866010_1_alg».proof.Proof.Gen.KernelIdeal.Skeleton
import proofs.«166120_j80522046866010_1_alg».proof.Proof.LibDense
import Idealize.ShloMosaic.Lib.ValueIdx
import Idealize.ShloMosaic.Lib.Pipeline.Value

noncomputable section

namespace Cert.Sage.Body

open Idealize.ShloMosaic Idealize.ShloMosaic.ValueIdx Cert.KernelIdeal Cert.KernelIdeal.Gen

/-- The first kernel's stored value at (p, q). -/
theorem pay0_apply (x0 : Vec Ideal S2000x256 .f32) (x1 : Vec Ideal S256x128 .f32) (x2 : Vec Ideal S1x128 .f32)
    (p : Fin 2000) (q : Fin 128) :
    k0_pay1 (F := Ideal) x0 x1 x2 (ix2 p q)
      = max ((∑ k : Fin 256, x0 (ix2 p k) * x1 (ix2 k q)) + x2 (ix2 (0 : Fin 1) q)) (Ideal.ofBits .f32 0x00000000#32) := by
  unfold k0_pay1
  simp only [shapeCast_self]
  exact congrArg (fun s => max s (Ideal.ofBits .f32 0x00000000#32))
    (Cert.LibDense.dense_apply _ (truncf .bf16 x0 bitsLt_bf16_f32) (truncf .bf16 x1 bitsLt_bf16_f32) x2
      broadcasts_S1x128_S2000x128 p q)

/-- The second kernel's stored value at (p, q): the same body. -/
theorem pay1_apply (x0 : Vec Ideal S2000x256 .f32) (x1 : Vec Ideal S256x128 .f32) (x2 : Vec Ideal S1x128 .f32)
    (p : Fin 2000) (q : Fin 128) :
    k1_pay1 (F := Ideal) x0 x1 x2 (ix2 p q)
      = max ((∑ k : Fin 256, x0 (ix2 p k) * x1 (ix2 k q)) + x2 (ix2 (0 : Fin 1) q)) (Ideal.ofBits .f32 0x00000000#32) := by
  unfold k1_pay1
  simp only [shapeCast_self]
  exact congrArg (fun s => max s (Ideal.ofBits .f32 0x00000000#32))
    (Cert.LibDense.dense_apply _ (truncf .bf16 x0 bitsLt_bf16_f32) (truncf .bf16 x1 bitsLt_bf16_f32) x2
      broadcasts_S1x128_S2000x128 p q)

/-- The third kernel's stored value at (p, q): no maximum, 64 columns. -/
theorem pay2_apply (x0 : Vec Ideal S2000x256 .f32) (x1 : Vec Ideal S256x64 .f32) (x2 : Vec Ideal S1x64 .f32)
    (p : Fin 2000) (q : Fin 64) :
    k2_pay1 (F := Ideal) x0 x1 x2 (ix2 p q)
      = (∑ k : Fin 256, x0 (ix2 p k) * x1 (ix2 k q)) + x2 (ix2 (0 : Fin 1) q) := by
  unfold k2_pay1
  simp only [shapeCast_self]
  exact Cert.LibDense.dense_apply _ (truncf .bf16 x0 bitsLt_bf16_f32) (truncf .bf16 x1 bitsLt_bf16_f32) x2
      broadcasts_S1x64_S2000x64 p q

end Cert.Sage.Body

end
-- ==== Proof.Region0.lean ====
/-
  What pallas_call 0 leaves in its result array, as ONE function of the three arrays it reads, whatever those hold
  when the call is entered.

  The grid has 25 points; point t reads rows 2000·t … 2000·t + 1999 of the [50000, 256] operand, the whole [256, 128]
  and [1, 128] operands, and writes rows 2000·t … 2000·t + 1999 of the result.  Row r of the result is therefore
  written by point r / 2000, from row r of the first operand: entry (r, q) ends at
      max( Σ_k h[r,k] · wt[k,q] + b[0,q] , 0 )
  and the 25 blocks cover all 50000 rows.
-/
import proofs.«166120_j80522046866010_1_alg».proof.Proof.Gen.KernelIdeal.Frame
import proofs.«166120_j80522046866010_1_alg».proof.Proof.Body
import Idealize.ShloMosaic.Lib.Pipeline.Value
import Idealize.ShloMosaic.Lib.ValueIdx

set_option maxRecDepth 16384

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the result from the whole operands. -/
def outAt (h : FVec Ideal S50000x256 .f32) (wt : FVec Ideal S256x128 .f32) (b2 : FVec Ideal S1x128 .f32)
    (r : Fin 50000) (q : Fin 128) : EReal :=
  max ((∑ k : Fin 256, h (ix2 r k) * wt (ix2 k q)) + b2 (ix2 (0 : Fin 1) q)) (Ideal.ofBits .f32 0x00000000#32)

/-- The result array. -/
def out (h : FVec Ideal S50000x256 .f32) (wt : FVec Ideal S256x128 .f32) (b2 : FVec Ideal S1x128 .f32) :
    FVec Ideal S50000x128 .f32 :=
  fun i => outAt h wt b2 (i 0) (i 1)

/-- The printed index maps over the grid: the row-blocked windows sit at block (t, 0), the others at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point t is rows 2000·t … of the array. -/
theorem blk_h (c : Dev nD) (t : Fin cfg0.N) (p : Fin 2000) (k : Fin 256) (r : Fin 50000) (hr : r.val = t.val * 2000 + p.val) :
    (iblk0 V c 0 t : Vec Ideal S2000x256 .f32) (ix2 p k) = (V c main_v24 : S50000x256.Idx → EReal) (ix2 r k) := by
  obtain ⟨e0, e1, -⟩ := idx_facts t
  unfold iblk0
  rw [View.read_apply]
  show V c main_v24 _ = V c main_v24 _
  refine congrArg (V c main_v24) (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The weights' block is the whole array at every point. -/
theorem blk_w (c : Dev nD) (t : Fin cfg0.N) (k : Fin 256) (q : Fin 128) :
    (iblk0 V c 1 t : Vec Ideal S256x128 .f32) (ix2 k q) = (V c main_v25 : S256x128.Idx → EReal) (ix2 k q) := by
  obtain ⟨-, -, e2, e3, -⟩ := idx_facts t
  unfold iblk0
  rw [View.read_apply]
  show V c main_v25 _ = V c main_v25 _
  refine congrArg (V c main_v25) (funext fun a => Fin.ext ?_)
  match a with
  | ⟨0, _⟩ => show win0_1.index t (0 : Fin 2) * 256 + 1 * k.val = k.val; omega
  | ⟨1, _⟩ => show win0_1.index t (1 : Fin 2) * 128 + 1 * q.val = q.val; omega

/-- The bias row's block is the whole row at every point. -/
theorem blk_b (c : Dev nD) (t : Fin cfg0.N) (q : Fin 128) :
    (iblk0 V c 2 t : Vec Ideal S1x128 .f32) (ix2 (0 : Fin 1) q) = (V c main_v26 : S1x128.Idx → EReal) (ix2 (0 : Fin 1) q) := by
  obtain ⟨-, -, -, -, e4, e5, -⟩ := idx_facts t
  unfold iblk0
  rw [View.read_apply]
  show V c main_v26 _ = V c main_v26 _
  refine congrArg (V c main_v26) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Where entry (p, q) of the result's block at point t lies in the array. -/
theorem emb_out (t : Fin cfg0.N) (p : Fin 2000) (q : Fin 128) (r : Fin 50000) (hr : r.val = t.val * 2000 + p.val) :
    (((cfg0.win 3).blk t).view.emb (ix2 p q) : S50000x128.Idx) = ix2 r q := by
  obtain ⟨-, -, -, -, -, -, e6, e7⟩ := idx_facts t
  refine funext fun a => Fin.ext ?_
  match a with
  | ⟨0, _⟩ => show win0_3.index t (0 : Fin 2) * 2000 + 1 * p.val = r.val; omega
  | ⟨1, _⟩ => show win0_3.index t (1 : Fin 2) * 128 + 1 * q.val = q.val; omega

/-- What point t writes back is block t of `out` of the operands as the call finds them. -/
theorem flushed_eq (c : Dev nD) (t : Fin cfg0.N) :
    (dat0 V c).flushed 3 t = ((cfg0.win 3).blk t).view.read (Elt Ideal) (out (V c main_v24) (V c main_v25) (V c main_v26)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  have ht : t.val < 25 := lt_of_lt_of_eq t.isLt N_0
  have hr : t.val * 2000 + p.val < 50000 := by have := p.isLt; omega
  refine (Cert.Sage.Body.pay0_apply (iblk0 V c 0 t) (iblk0 V c 1 t) (iblk0 V c 2 t) p q).trans ?_
  rw [View.read_apply, emb_out t p q ⟨t.val * 2000 + p.val, hr⟩ rfl]
  show _ = outAt (V c main_v24) (V c main_v25) (V c main_v26) ⟨t.val * 2000 + p.val, hr⟩ q
  unfold outAt
  rw [blk_b V c t q]
  refine congrArg (fun s => max (s + (V c main_v26 : S1x128.Idx → EReal) (ix2 (0 : Fin 1) q)) (Ideal.ofBits .f32 0x00000000#32)) ?_
  exact Finset.sum_congr rfl fun k _ => by rw [blk_h V c t p k ⟨t.val * 2000 + p.val, hr⟩ rfl, blk_w V c t k q]

/-- An index of the result lies in point t's block iff each coordinate lies in the block's range. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v27).slice (win0_3.rect t)).set ↔ _
  rw [View.set_slice_whole, Rect.mem_set_unit]
  exact Iff.rfl

/-- Every row lies in the block of point (row / 2000). -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  obtain ⟨-, -, -, -, -, -, e6, e7⟩ := idx_facts ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e7]; omega

/-- The result array after the call. -/
theorem final (c : Dev nD) : (dat0 V c).arrAt 3 cfg0.N = out (V c main_v24) (V c main_v25) (V c main_v26) :=
  (dat0 V c).arrAt_eq_of_cover 3 (out (V c main_v24) (V c main_v25) (V c main_v26)) (fun t _ => flushed_eq V c t) cover

end Cert.Sage.Region0

end
-- ==== Proof.Region1.lean ====
/-
  What pallas_call 1 leaves in its result array, as ONE function of the three arrays it reads, whatever those hold
  when the call is entered.

  The grid has 25 points; point t reads rows 2000·t … 2000·t + 1999 of the [50000, 256] operand, the whole [256, 128]
  and [1, 128] operands, and writes rows 2000·t … 2000·t + 1999 of the result.  Row r of the result is therefore
  written by point r / 2000, from row r of the first operand: entry (r, q) ends at
      max( Σ_k h[r,k] · wt[k,q] + b[0,q] , 0 )
  and the 25 blocks cover all 50000 rows.
-/
import proofs.«166120_j80522046866010_1_alg».proof.Proof.Gen.KernelIdeal.Frame
import proofs.«166120_j80522046866010_1_alg».proof.Proof.Body
import Idealize.ShloMosaic.Lib.Pipeline.Value
import Idealize.ShloMosaic.Lib.ValueIdx

set_option maxRecDepth 16384

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the result from the whole operands. -/
def outAt (h : FVec Ideal S50000x256 .f32) (wt : FVec Ideal S256x128 .f32) (b2 : FVec Ideal S1x128 .f32)
    (r : Fin 50000) (q : Fin 128) : EReal :=
  max ((∑ k : Fin 256, h (ix2 r k) * wt (ix2 k q)) + b2 (ix2 (0 : Fin 1) q)) (Ideal.ofBits .f32 0x00000000#32)

/-- The result array. -/
def out (h : FVec Ideal S50000x256 .f32) (wt : FVec Ideal S256x128 .f32) (b2 : FVec Ideal S1x128 .f32) :
    FVec Ideal S50000x128 .f32 :=
  fun i => outAt h wt b2 (i 0) (i 1)

/-- The printed index maps over the grid: the row-blocked windows sit at block (t, 0), the others at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first operand's block at point t is rows 2000·t … of the array. -/
theorem blk_h (c : Dev nD) (t : Fin cfg1.N) (p : Fin 2000) (k : Fin 256) (r : Fin 50000) (hr : r.val = t.val * 2000 + p.val) :
    (iblk1 V c 0 t : Vec Ideal S2000x256 .f32) (ix2 p k) = (V c main_v48 : S50000x256.Idx → EReal) (ix2 r k) := by
  obtain ⟨e0, e1, -⟩ := idx_facts t
  unfold iblk1
  rw [View.read_apply]
  show V c main_v48 _ = V c main_v48 _
  refine congrArg (V c main_v48) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- The weights' block is the whole array at every point. -/
theorem blk_w (c : Dev nD) (t : Fin cfg1.N) (k : Fin 256) (q : Fin 128) :
    (iblk1 V c 1 t : Vec Ideal S256x128 .f32) (ix2 k q) = (V c main_v49 : S256x128.Idx → EReal) (ix2 k q) := by
  obtain ⟨-, -, e2, e3, -⟩ := idx_facts t
  unfold iblk1
  rw [View.read_apply]
  show V c main_v49 _ = V c main_v49 _
  refine congrArg (V c main_v49) (funext fun a => Fin.ext ?_)
  match a with
  | ⟨0, _⟩ => show win1_1.index t (0 : Fin 2) * 256 + 1 * k.val = k.val; omega
  | ⟨1, _⟩ => show win1_1.index t (1 : Fin 2) * 128 + 1 * q.val = q.val; omega

/-- The bias row's block is the whole row at every point. -/
theorem blk_b (c : Dev nD) (t : Fin cfg1.N) (q : Fin 128) :
    (iblk1 V c 2 t : Vec Ideal S1x128 .f32) (ix2 (0 : Fin 1) q) = (V c main_v50 : S1x128.Idx → EReal) (ix2 (0 : Fin 1) q) := by
  obtain ⟨-, -, -, -, e4, e5, -⟩ := idx_facts t
  unfold iblk1
  rw [View.read_apply]
  show V c main_v50 _ = V c main_v50 _
  refine congrArg (V c main_v50) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- Where entry (p, q) of the result's block at point t lies in the array. -/
theorem emb_out (t : Fin cfg1.N) (p : Fin 2000) (q : Fin 128) (r : Fin 50000) (hr : r.val = t.val * 2000 + p.val) :
    (((cfg1.win 3).blk t).view.emb (ix2 p q) : S50000x128.Idx) = ix2 r q := by
  obtain ⟨-, -, -, -, -, -, e6, e7⟩ := idx_facts t
  refine funext fun a => Fin.ext ?_
  match a with
  | ⟨0, _⟩ => show win1_3.index t (0 : Fin 2) * 2000 + 1 * p.val = r.val; omega
  | ⟨1, _⟩ => show win1_3.index t (1 : Fin 2) * 128 + 1 * q.val = q.val; omega

/-- What point t writes back is block t of `out` of the operands as the call finds them. -/
theorem flushed_eq (c : Dev nD) (t : Fin cfg1.N) :
    (dat1 V c).flushed 3 t = ((cfg1.win 3).blk t).view.read (Elt Ideal) (out (V c main_v48) (V c main_v49) (V c main_v50)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  have ht : t.val < 25 := lt_of_lt_of_eq t.isLt N_1
  have hr : t.val * 2000 + p.val < 50000 := by have := p.isLt; omega
  refine (Cert.Sage.Body.pay1_apply (iblk1 V c 0 t) (iblk1 V c 1 t) (iblk1 V c 2 t) p q).trans ?_
  rw [View.read_apply, emb_out t p q ⟨t.val * 2000 + p.val, hr⟩ rfl]
  show _ = outAt (V c main_v48) (V c main_v49) (V c main_v50) ⟨t.val * 2000 + p.val, hr⟩ q
  unfold outAt
  rw [blk_b V c t q]
  refine congrArg (fun s => max (s + (V c main_v50 : S1x128.Idx → EReal) (ix2 (0 : Fin 1) q)) (Ideal.ofBits .f32 0x00000000#32)) ?_
  exact Finset.sum_congr rfl fun k _ => by rw [blk_h V c t p k ⟨t.val * 2000 + p.val, hr⟩ rfl, blk_w V c t k q]

/-- An index of the result lies in point t's block iff each coordinate lies in the block's range. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v51).slice (win1_3.rect t)).set ↔ _
  rw [View.set_slice_whole, Rect.mem_set_unit]
  exact Iff.rfl

/-- Every row lies in the block of point (row / 2000). -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_3 _, ?_⟩
  obtain ⟨-, -, -, -, -, -, e6, e7⟩ := idx_facts ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

/-- The result array after the call. -/
theorem final (c : Dev nD) : (dat1 V c).arrAt 3 cfg1.N = out (V c main_v48) (V c main_v49) (V c main_v50) :=
  (dat1 V c).arrAt_eq_of_cover 3 (out (V c main_v48) (V c main_v49) (V c main_v50)) (fun t _ => flushed_eq V c t) cover

end Cert.Sage.Region1

end
-- ==== Proof.Region2.lean ====
/-
  What pallas_call 2 leaves in its result array, as ONE function of the three arrays it reads, whatever those hold
  when the call is entered.

  The grid has 25 points; point t reads rows 2000·t … 2000·t + 1999 of the [50000, 256] operand, the whole [256, 64]
  and [1, 64] operands, and writes rows 2000·t … 2000·t + 1999 of the result.  Row r of the result is therefore
  written by point r / 2000, from row r of the first operand: entry (r, q) ends at
      Σ_k h[r,k] · wt[k,q] + b[0,q]
  and the 25 blocks cover all 50000 rows.
-/
import proofs.«166120_j80522046866010_1_alg».proof.Proof.Gen.KernelIdeal.Frame
import proofs.«166120_j80522046866010_1_alg».proof.Proof.Body
import Idealize.ShloMosaic.Lib.Pipeline.Value
import Idealize.ShloMosaic.Lib.ValueIdx

set_option maxRecDepth 16384

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, q) of the result from the whole operands. -/
def outAt (h : FVec Ideal S50000x256 .f32) (wt : FVec Ideal S256x64 .f32) (b2 : FVec Ideal S1x64 .f32)
    (r : Fin 50000) (q : Fin 64) : EReal :=
  (∑ k : Fin 256, h (ix2 r k) * wt (ix2 k q)) + b2 (ix2 (0 : Fin 1) q)

/-- The result array. -/
def out (h : FVec Ideal S50000x256 .f32) (wt : FVec Ideal S256x64 .f32) (b2 : FVec Ideal S1x64 .f32) :
    FVec Ideal S50000x64 .f32 :=
  fun i => outAt h wt b2 (i 0) (i 1)

/-- The printed index maps over the grid: the row-blocked windows sit at block (t, 0), the others at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first operand's block at point t is rows 2000·t … of the array. -/
theorem blk_h (c : Dev nD) (t : Fin cfg2.N) (p : Fin 2000) (k : Fin 256) (r : Fin 50000) (hr : r.val = t.val * 2000 + p.val) :
    (iblk2 V c 0 t : Vec Ideal S2000x256 .f32) (ix2 p k) = (V c main_v72 : S50000x256.Idx → EReal) (ix2 r k) := by
  obtain ⟨e0, e1, -⟩ := idx_facts t
  unfold iblk2
  rw [View.read_apply]
  show V c main_v72 _ = V c main_v72 _
  refine congrArg (V c main_v72) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- The weights' block is the whole array at every point. -/
theorem blk_w (c : Dev nD) (t : Fin cfg2.N) (k : Fin 256) (q : Fin 64) :
    (iblk2 V c 1 t : Vec Ideal S256x64 .f32) (ix2 k q) = (V c main_v73 : S256x64.Idx → EReal) (ix2 k q) := by
  obtain ⟨-, -, e2, e3, -⟩ := idx_facts t
  unfold iblk2
  rw [View.read_apply]
  show V c main_v73 _ = V c main_v73 _
  refine congrArg (V c main_v73) (funext fun a => Fin.ext ?_)
  match a with
  | ⟨0, _⟩ => show win2_1.index t (0 : Fin 2) * 256 + 1 * k.val = k.val; omega
  | ⟨1, _⟩ => show win2_1.index t (1 : Fin 2) * 64 + 1 * q.val = q.val; omega

/-- The bias row's block is the whole row at every point. -/
theorem blk_b (c : Dev nD) (t : Fin cfg2.N) (q : Fin 64) :
    (iblk2 V c 2 t : Vec Ideal S1x64 .f32) (ix2 (0 : Fin 1) q) = (V c main_v74 : S1x64.Idx → EReal) (ix2 (0 : Fin 1) q) := by
  obtain ⟨-, -, -, -, e4, e5, -⟩ := idx_facts t
  unfold iblk2
  rw [View.read_apply]
  show V c main_v74 _ = V c main_v74 _
  refine congrArg (V c main_v74) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- Where entry (p, q) of the result's block at point t lies in the array. -/
theorem emb_out (t : Fin cfg2.N) (p : Fin 2000) (q : Fin 64) (r : Fin 50000) (hr : r.val = t.val * 2000 + p.val) :
    (((cfg2.win 3).blk t).view.emb (ix2 p q) : S50000x64.Idx) = ix2 r q := by
  obtain ⟨-, -, -, -, -, -, e6, e7⟩ := idx_facts t
  refine funext fun a => Fin.ext ?_
  match a with
  | ⟨0, _⟩ => show win2_3.index t (0 : Fin 2) * 2000 + 1 * p.val = r.val; omega
  | ⟨1, _⟩ => show win2_3.index t (1 : Fin 2) * 64 + 1 * q.val = q.val; omega

/-- What point t writes back is block t of `out` of the operands as the call finds them. -/
theorem flushed_eq (c : Dev nD) (t : Fin cfg2.N) :
    (dat2 V c).flushed 3 t = ((cfg2.win 3).blk t).view.read (Elt Ideal) (out (V c main_v72) (V c main_v73) (V c main_v74)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x64) hz, View.ld_unit_zero (S := S1x64) hz]
  funext j
  obtain ⟨p, q, rfl⟩ : ∃ (p : Fin 2000) (q : Fin 64), j = ix2 p q := ⟨j 0, j 1, eq_ix2 j⟩
  have ht : t.val < 25 := lt_of_lt_of_eq t.isLt N_2
  have hr : t.val * 2000 + p.val < 50000 := by have := p.isLt; omega
  refine (Cert.Sage.Body.pay2_apply (iblk2 V c 0 t) (iblk2 V c 1 t) (iblk2 V c 2 t) p q).trans ?_
  rw [View.read_apply, emb_out t p q ⟨t.val * 2000 + p.val, hr⟩ rfl]
  show _ = outAt (V c main_v72) (V c main_v73) (V c main_v74) ⟨t.val * 2000 + p.val, hr⟩ q
  unfold outAt
  rw [blk_b V c t q]
  refine congrArg (fun s => s + (V c main_v74 : S1x64.Idx → EReal) (ix2 (0 : Fin 1) q)) ?_
  exact Finset.sum_congr rfl fun k _ => by rw [blk_h V c t p k ⟨t.val * 2000 + p.val, hr⟩ rfl, blk_w V c t k q]

/-- An index of the result lies in point t's block iff each coordinate lies in the block's range. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v75).slice (win2_3.rect t)).set ↔ _
  rw [View.set_slice_whole, Rect.mem_set_unit]
  exact Iff.rfl

/-- Every row lies in the block of point (row / 2000). -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_3 _, ?_⟩
  obtain ⟨-, -, -, -, -, -, e6, e7⟩ := idx_facts ⟨(i 0).val / 2000, by rw [hN]; omega⟩
  rw [mem_blk]
  intro a
  match a with
  | ⟨0, _⟩ =>
    show win2_3.index _ (0 : Fin 2) * 2000 ≤ (i 0).val ∧ (i 0).val < win2_3.index _ (0 : Fin 2) * 2000 + 2000
    rw [e6]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [e7]; omega

/-- The result array after the call. -/
theorem final (c : Dev nD) : (dat2 V c).arrAt 3 cfg2.N = out (V c main_v72) (V c main_v73) (V c main_v74) :=
  (dat2 V c).arrAt_eq_of_cover 3 (out (V c main_v72) (V c main_v73) (V c main_v74)) (fun t _ => flushed_eq V c t) cover

end Cert.Sage.Region2

end
-- ==== Proof.HostK0.lean ====
/-
  Layer 0 of the kernel's program, host side: what the three operands of pallas_call 0 hold when it is entered, read
  off the stretches of host operations before it — the slices and the index wrap, gather, scale and the two
  scatter-adds; the clip of the degree; the divide, the concatenation, the transpose of the weights and the bias as a
  row — one stretch at a time from arbitrary contents, then composed.  The concatenated operand is [x | A x] of what
  the layer's input buffer held; the others are the transposed weights and the bias row.
-/
import proofs.«166120_j80522046866010_1_alg».proof.Proof.Gen.KernelIdeal.Frame
import proofs.«166120_j80522046866010_1_alg».proof.Proof.Layers
import Idealize.ShloMosaic.Lib.StableHlo.Run

set_option maxRecDepth 16384

noncomputable section

namespace Cert.Sage.HostK0

open Idealize.ShloMosaic Idealize.ShloMosaic.TcCoe Idealize.SL.Sem Idealize.ShloMosaic.StableHlo
open Cert.KernelIdeal Cert.KernelIdeal.Gen Cert.Sage

variable (U : Valuation τ sig (Elt Ideal))

/-! ## One stretch at a time, from any contents `U` -/

set_option maxHeartbeats 1000000 in
/-- The summed messages, read off the first stretch. -/
theorem a16 : StableHlo.after hostOps0 U (Proc.devRef .tc main_v16) = sumMsg (U (Proc.devRef .tc main_arg0)) (rowOf (U (Proc.devRef .tc main_arg1))) (colOf (U (Proc.devRef .tc main_arg1))) (U (Proc.devRef .tc main_arg2)) := by
  dsimp only [hostOps0]
  after_results_simp <;> rfl

set_option maxHeartbeats 1000000 in
/-- The summed weights. -/
theorem a19 : StableHlo.after hostOps0 U (Proc.devRef .tc main_v19) = sumW (rowOf (U (Proc.devRef .tc main_arg1))) (U (Proc.devRef .tc main_arg2)) := by
  dsimp only [hostOps0]
  after_results_simp <;> rfl

set_option maxHeartbeats 1000000 in
/-- The scalar one the degree is clipped at. -/
theorem ac : StableHlo.after hostOps0 U (Proc.devRef .tc main_cst_2) = constant (F := Ideal) S_ .f32 0x3F800000#32 := by
  dsimp only [hostOps0]
  after_results_simp <;> rfl

set_option maxHeartbeats 1000000 in
/-- The first stretch leaves `main_arg0` alone. -/
theorem kA_main_arg0 : StableHlo.after hostOps0 U (Proc.devRef .tc main_arg0) = U (Proc.devRef .tc main_arg0) := by
  dsimp only [hostOps0]
  after_results_simp <;> rfl

set_option maxHeartbeats 1000000 in
/-- The first stretch leaves `main_arg3` alone. -/
theorem kA_main_arg3 : StableHlo.after hostOps0 U (Proc.devRef .tc main_arg3) = U (Proc.devRef .tc main_arg3) := by
  dsimp only [hostOps0]
  after_results_simp <;> rfl

set_option maxHeartbeats 1000000 in
/-- The first stretch leaves `main_arg4` alone. -/
theorem kA_main_arg4 : StableHlo.after hostOps0 U (Proc.devRef .tc main_arg4) = U (Proc.devRef .tc main_arg4) := by
  dsimp only [hostOps0]
  after_results_simp <;> rfl

set_option maxHeartbeats 1000000 in
/-- The concatenated operand of the dense part, read off the clip and the last stretch. -/
theorem cb24 : StableHlo.after hostOps0_2 (StableHlo.after hostOps0_1 U) (Proc.devRef .tc main_v24)
    = catDiv (U (Proc.devRef .tc main_arg0)) (U (Proc.devRef .tc main_v16)) (clipBy (U (Proc.devRef .tc main_cst_2)) (U (Proc.devRef .tc main_v19))) := by
  dsimp only [hostOps0_1, hostOps0_2]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)

set_option maxHeartbeats 1000000 in
/-- The transposed weights. -/
theorem cb25 : StableHlo.after hostOps0_2 (StableHlo.after hostOps0_1 U) (Proc.devRef .tc main_v25) = transpose S256x128 [1, 0] (U (Proc.devRef .tc main_arg3)) transposes_S128x256_S256x128_1_0 := by
  dsimp only [hostOps0_1, hostOps0_2]
  after_results_simp <;> rfl

set_option maxHeartbeats 1000000 in
/-- The bias as a row. -/
theorem cb26 : StableHlo.after hostOps0_2 (StableHlo.after hostOps0_1 U) (Proc.devRef .tc main_v26) = shapeCast _ (U (Proc.devRef .tc main_arg4)) shapeCasts_S128_S1x128 := by
  dsimp only [hostOps0_1, hostOps0_2]
  after_results_simp <;> rfl

/-! ## Composed: the call's operands at entry -/

variable (m : (ℓ : Loc nD τ sig) → Buf (Elt Ideal) ℓ) (ρ : Dev nD → PrngReg)

/-- The concatenated operand: [x | A x] of the layer's input. -/
theorem entry_h (c : Dev nD) : V3 (F := Ideal) m ρ c main_v24
    = aggRaw (W0 m ρ c (Proc.devRef .tc main_arg0)) (rowOf (W0 m ρ c (Proc.devRef .tc main_arg1))) (colOf (W0 m ρ c (Proc.devRef .tc main_arg1))) (W0 m ρ c (Proc.devRef .tc main_arg2)) := by
  show StableHlo.after hostOps0_2 (StableHlo.after hostOps0_1 (StableHlo.after hostOps0 (W0 m ρ c))) (Proc.devRef .tc main_v24) = _
  rw [cb24, kA_main_arg0, a16, ac, a19]
  rfl

/-- The transposed weights. -/
theorem entry_w (c : Dev nD) : V3 (F := Ideal) m ρ c main_v25 = transpose S256x128 [1, 0] (W0 m ρ c (Proc.devRef .tc main_arg3)) transposes_S128x256_S256x128_1_0 := by
  show StableHlo.after hostOps0_2 (StableHlo.after hostOps0_1 (StableHlo.after hostOps0 (W0 m ρ c))) (Proc.devRef .tc main_v25) = _
  rw [cb25, kA_main_arg3]

/-- The bias row. -/
theorem entry_b (c : Dev nD) : V3 (F := Ideal) m ρ c main_v26 = shapeCast _ (W0 m ρ c (Proc.devRef .tc main_arg4)) shapeCasts_S128_S1x128 := by
  show StableHlo.after hostOps0_2 (StableHlo.after hostOps0_1 (StableHlo.after hostOps0 (W0 m ρ c))) (Proc.devRef .tc main_v26) = _
  rw [cb26, kA_main_arg4]

/-! ## What later layers still read -/

set_option maxHeartbeats 1000000 in
/-- After the first layer's host operations `main_v1` holds the edges' row index. -/
theorem pass_main_v1 (c : Dev nD) : W3 (F := Ideal) m ρ c (Proc.devRef .tc main_v1) = rowOf (W0 m ρ c (Proc.devRef .tc main_arg1)) := by
  show StableHlo.after hostOps0_2 (StableHlo.after hostOps0_1 (StableHlo.after hostOps0 (W0 m ρ c))) (Proc.devRef .tc main_v1) = _
  dsimp only [hostOps0, hostOps0_1, hostOps0_2]
  after_results_simp <;> rfl

set_option maxHeartbeats 1000000 in
/-- … and `main_v3` the column index. -/
theorem pass_main_v3 (c : Dev nD) : W3 (F := Ideal) m ρ c (Proc.devRef .tc main_v3) = colOf (W0 m ρ c (Proc.devRef .tc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

set_option maxHeartbeats 1000000 in
/-- This layer's host operations leave `main_arg2` alone. -/
theorem pass_main_arg2 (c : Dev nD) : W3 (F := Ideal) m ρ c (Proc.devRef .tc main_arg2) = W0 m ρ c (Proc.devRef .tc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl

set_option maxHeartbeats 1000000 in
/-- This layer's host operations leave `main_arg5` alone. -/
theorem pass_main_arg5 (c : Dev nD) : W3 (F := Ideal) m ρ c (Proc.devRef .tc main_arg5) = W0 m ρ c (Proc.devRef .tc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

set_option maxHeartbeats 1000000 in
/-- This layer's host operations leave `main_arg6` alone. -/
theorem pass_main_arg6 (c : Dev nD) : W3 (F := Ideal) m ρ c (Proc.devRef .tc main_arg6) = W0 m ρ c (Proc.devRef .tc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp <;> rfl

set_option maxHeartbeats 1000000 in
/-- This layer's host operations leave `main_arg7` alone. -/
theorem pass_main_arg7 (c : Dev nD) : W3 (F := Ideal) m ρ c (Proc.devRef .tc main_arg7) = W0 m ρ c (Proc.devRef .tc main_arg7) := by
  show StableHlo.after hostOps0_2 (StableHlo.after hostOps0_1 (StableHlo.after hostOps0 (W0 m ρ c))) (Proc.devRef .tc main_arg7) = _
  dsimp only [hostOps0, hostOps0_1, hostOps0_2]
  after_results_simp <;> rfl

set_option maxHeartbeats 1000000 in
/-- This layer's host operations leave `main_arg8` alone. -/
theorem pass_main_arg8 (c : Dev nD) : W3 (F := Ideal) m ρ c (Proc.devRef .tc main_arg8) = W0 m ρ c (Proc.devRef .tc main_arg8) := by
  show StableHlo.after hostOps0_2 (StableHlo.after hostOps0_1 (StableHlo.after hostOps0 (W0 m ρ c))) (Proc.devRef .tc main_arg8) = _
  dsimp only [hostOps0, hostOps0_1, hostOps0_2]
  after_results_simp <;> rfl

end Cert.Sage.HostK0

end
-- ==== Proof.HostK1.lean ====
/-
  Layer 1 of the kernel's program, host side: what the three operands of pallas_call 1 hold when it is entered, read
  off the stretches of host operations before it — the slices and the index wrap, gather, scale and the two
  scatter-adds; the clip of the degree; the divide, the concatenation, the transpose of the weights and the bias as a
  row — one stretch at a time from arbitrary contents, then composed.  The concatenated operand is [x | A x] of what
  the layer's input buffer held; the others are the transposed weights and the bias row.
-/
import proofs.«166120_j80522046866010_1_alg».proof.Proof.Gen.KernelIdeal.Frame
import proofs.«166120_j80522046866010_1_alg».proof.Proof.Layers
import Idealize.ShloMosaic.Lib.StableHlo.Run

set_option maxRecDepth 16384

noncomputable section

namespace Cert.Sage.HostK1

open Idealize.ShloMosaic Idealize.ShloMosaic.TcCoe Idealize.SL.Sem Idealize.ShloMosaic.StableHlo
open Cert.KernelIdeal Cert.KernelIdeal.Gen Cert.Sage

variable (U : Valuation τ sig (Elt Ideal))

/-! ## One stretch at a time, from any contents `U` -/

set_option maxHeartbeats 1000000 in
/-- The summed messages, read off the first stretch. -/
theorem a16 : StableHlo.after hostOps1 U (Proc.devRef .tc main_v40) = sumMsg (U (Proc.devRef .tc main_v27)) (U (Proc.devRef .tc main_v1)) (U (Proc.devRef .tc main_v3)) (U (Proc.devRef .tc main_arg2)) := by
  dsimp only [hostOps1]
  after_results_simp <;> rfl

set_option maxHeartbeats 1000000 in
/-- The summed weights. -/
theorem a19 : StableHlo.after hostOps1 U (Proc.devRef .tc main_v43) = sumW (U (Proc.devRef .tc main_v1)) (U (Proc.devRef .tc main_arg2)) := by
  dsimp only [hostOps1]
  after_results_simp <;> rfl

set_option maxHeartbeats 1000000 in
/-- The scalar one the degree is clipped at. -/
theorem ac : StableHlo.after hostOps1 U (Proc.devRef .tc main_cst_7) = constant (F := Ideal) S_ .f32 0x3F800000#32 := by
  dsimp only [hostOps1]
  after_results_simp <;> rfl

set_option maxHeartbeats 1000000 in
/-- The first stretch leaves `main_v27` alone. -/
theorem kA_main_v27 : StableHlo.after hostOps1 U (Proc.devRef .tc main_v27) = U (Proc.devRef .tc main_v27) := by
  dsimp only [hostOps1]
  after_results_simp <;> rfl

set_option maxHeartbeats 1000000 in
/-- The first stretch leaves `main_arg5` alone. -/
theorem kA_main_arg5 : StableHlo.after hostOps1 U (Proc.devRef .tc main_arg5) = U (Proc.devRef .tc main_arg5) := by
  dsimp only [hostOps1]
  after_results_simp <;> rfl

set_option maxHeartbeats 1000000 in
/-- The first stretch leaves `main_arg6` alone. -/
theorem kA_main_arg6 : StableHlo.after hostOps1 U (Proc.devRef .tc main_arg6) = U (Proc.devRef .tc main_arg6) := by
  dsimp only [hostOps1]
  after_results_simp <;> rfl

set_option maxHeartbeats 1000000 in
/-- The concatenated operand of the dense part, read off the clip and the last stretch. -/
theorem cb24 : StableHlo.after hostOps1_2 (StableHlo.after hostOps1_1 U) (Proc.devRef .tc main_v48)
    = catDiv (U (Proc.devRef .tc main_v27)) (U (Proc.devRef .tc main_v40)) (clipBy (U (Proc.devRef .tc main_cst_7)) (U (Proc.devRef .tc main_v43))) := by
  dsimp only [hostOps1_1, hostOps1_2]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)

set_option maxHeartbeats 1000000 in
/-- The transposed weights. -/
theorem cb25 : StableHlo.after hostOps1_2 (StableHlo.after hostOps1_1 U) (Proc.devRef .tc main_v49) = transpose S256x128 [1, 0] (U (Proc.devRef .tc main_arg5)) transposes_S128x256_S256x128_1_0 := by
  dsimp only [hostOps1_1, hostOps1_2]
  after_results_simp <;> rfl

set_option maxHeartbeats 1000000 in
/-- The bias as a row. -/
theorem cb26 : StableHlo.after hostOps1_2 (StableHlo.after hostOps1_1 U) (Proc.devRef .tc main_v50) = shapeCast _ (U (Proc.devRef .tc main_arg6)) shapeCasts_S128_S1x128 := by
  dsimp only [hostOps1_1, hostOps1_2]
  after_results_simp <;> rfl

/-! ## Composed: the call's operands at entry -/

variable (m : (ℓ : Loc nD τ sig) → Buf (Elt Ideal) ℓ) (ρ : Dev nD → PrngReg)

/-- The concatenated operand: [x | A x] of the layer's input. -/
theorem entry_h (c : Dev nD) : V7 (F := Ideal) m ρ c main_v48
    = aggRaw (W4 m ρ c (Proc.devRef .tc main_v27)) (W4 m ρ c (Proc.devRef .tc main_v1)) (W4 m ρ c (Proc.devRef .tc main_v3)) (W4 m ρ c (Proc.devRef .tc main_arg2)) := by
  show StableHlo.after hostOps1_2 (StableHlo.after hostOps1_1 (StableHlo.after hostOps1 (W4 m ρ c))) (Proc.devRef .tc main_v48) = _
  rw [cb24, kA_main_v27, a16, ac, a19]
  rfl

/-- The transposed weights. -/
theorem entry_w (c : Dev nD) : V7 (F := Ideal) m ρ c main_v49 = transpose S256x128 [1, 0] (W4 m ρ c (Proc.devRef .tc main_arg5)) transposes_S128x256_S256x128_1_0 := by
  show StableHlo.after hostOps1_2 (StableHlo.after hostOps1_1 (StableHlo.after hostOps1 (W4 m ρ c))) (Proc.devRef .tc main_v49) = _
  rw [cb25, kA_main_arg5]

/-- The bias row. -/
theorem entry_b (c : Dev nD) : V7 (F := Ideal) m ρ c main_v50 = shapeCast _ (W4 m ρ c (Proc.devRef .tc main_arg6)) shapeCasts_S128_S1x128 := by
  show StableHlo.after hostOps1_2 (StableHlo.after hostOps1_1 (StableHlo.after hostOps1 (W4 m ρ c))) (Proc.devRef .tc main_v50) = _
  rw [cb26, kA_main_arg6]

/-! ## What later layers still read -/

set_option maxHeartbeats 1000000 in
/-- This layer's host operations leave `main_v1` alone. -/
theorem pass_main_v1 (c : Dev nD) : W7 (F := Ideal) m ρ c (Proc.devRef .tc main_v1) = W4 m ρ c (Proc.devRef .tc main_v1) := by
  show StableHlo.after hostOps1_2 (StableHlo.after hostOps1_1 (StableHlo.after hostOps1 (W4 m ρ c))) (Proc.devRef .tc main_v1) = _
  dsimp only [hostOps1, hostOps1_1, hostOps1_2]
  after_results_simp <;> rfl

set_option maxHeartbeats 1000000 in
/-- This layer's host operations leave `main_v3` alone. -/
theorem pass_main_v3 (c : Dev nD) : W7 (F := Ideal) m ρ c (Proc.devRef .tc main_v3) = W4 m ρ c (Proc.devRef .tc main_v3) := by
  show StableHlo.after hostOps1_2 (StableHlo.after hostOps1_1 (StableHlo.after hostOps1 (W4 m ρ c))) (Proc.devRef .tc main_v3) = _
  dsimp only [hostOps1, hostOps1_1, hostOps1_2]
  after_results_simp <;> rfl

set_option maxHeartbeats 1000000 in
/-- This layer's host operations leave `main_arg2` alone. -/
theorem pass_main_arg2 (c : Dev nD) : W7 (F := Ideal) m ρ c (Proc.devRef .tc main_arg2) = W4 m ρ c (Proc.devRef .tc main_arg2) := by
  show StableHlo.after hostOps1_2 (StableHlo.after hostOps1_1 (StableHlo.after hostOps1 (W4 m ρ c))) (Proc.devRef .tc main_arg2) = _
  dsimp only [hostOps1, hostOps1_1, hostOps1_2]
  after_results_simp <;> rfl

set_option maxHeartbeats 1000000 in
/-- This layer's host operations leave `main_arg7` alone. -/
theorem pass_main_arg7 (c : Dev nD) : W7 (F := Ideal) m ρ c (Proc.devRef .tc main_arg7) = W4 m ρ c (Proc.devRef .tc main_arg7) := by
  show StableHlo.after hostOps1_2 (StableHlo.after hostOps1_1 (StableHlo.after hostOps1 (W4 m ρ c))) (Proc.devRef .tc main_arg7) = _
  dsimp only [hostOps1, hostOps1_1, hostOps1_2]
  after_results_simp <;> rfl

set_option maxHeartbeats 1000000 in
/-- This layer's host operations leave `main_arg8` alone. -/
theorem pass_main_arg8 (c : Dev nD) : W7 (F := Ideal) m ρ c (Proc.devRef .tc main_arg8) = W4 m ρ c (Proc.devRef .tc main_arg8) := by
  show StableHlo.after hostOps1_2 (StableHlo.after hostOps1_1 (StableHlo.after hostOps1 (W4 m ρ c))) (Proc.devRef .tc main_arg8) = _
  dsimp only [hostOps1, hostOps1_1, hostOps1_2]
  after_results_simp <;> rfl

end Cert.Sage.HostK1

end
-- ==== Proof.HostK2.lean ====
/-
  Layer 2 of the kernel's program, host side: what the three operands of pallas_call 2 hold when it is entered, read
  off the stretches of host operations before it — the slices and the index wrap, gather, scale and the two
  scatter-adds; the clip of the degree; the divide, the concatenation, the transpose of the weights and the bias as a
  row — one stretch at a time from arbitrary contents, then composed.  The concatenated operand is [x | A x] of what
  the layer's input buffer held; the others are the transposed weights and the bias row.
-/
import proofs.«166120_j80522046866010_1_alg».proof.Proof.Gen.KernelIdeal.Frame
import proofs.«166120_j80522046866010_1_alg».proof.Proof.Layers
import Idealize.ShloMosaic.Lib.StableHlo.Run

set_option maxRecDepth 16384

noncomputable section

namespace Cert.Sage.HostK2

open Idealize.ShloMosaic Idealize.ShloMosaic.TcCoe Idealize.SL.Sem Idealize.ShloMosaic.StableHlo
open Cert.KernelIdeal Cert.KernelIdeal.Gen Cert.Sage

variable (U : Valuation τ sig (Elt Ideal))

/-! ## One stretch at a time, from any contents `U` -/

set_option maxHeartbeats 1000000 in
/-- The summed messages, read off the first stretch. -/
theorem a16 : StableHlo.after hostOps2 U (Proc.devRef .tc main_v64) = sumMsg (U (Proc.devRef .tc main_v51)) (U (Proc.devRef .tc main_v1)) (U (Proc.devRef .tc main_v3)) (U (Proc.devRef .tc main_arg2)) := by
  dsimp only [hostOps2]
  after_results_simp <;> rfl

set_option maxHeartbeats 1000000 in
/-- The summed weights. -/
theorem a19 : StableHlo.after hostOps2 U (Proc.devRef .tc main_v67) = sumW (U (Proc.devRef .tc main_v1)) (U (Proc.devRef .tc main_arg2)) := by
  dsimp only [hostOps2]
  after_results_simp <;> rfl

set_option maxHeartbeats 1000000 in
/-- The scalar one the degree is clipped at. -/
theorem ac : StableHlo.after hostOps2 U (Proc.devRef .tc main_cst_12) = constant (F := Ideal) S_ .f32 0x3F800000#32 := by
  dsimp only [hostOps2]
  after_results_simp <;> rfl

set_option maxHeartbeats 1000000 in
/-- The first stretch leaves `main_v51` alone. -/
theorem kA_main_v51 : StableHlo.after hostOps2 U (Proc.devRef .tc main_v51) = U (Proc.devRef .tc main_v51) := by
  dsimp only [hostOps2]
  after_results_simp <;> rfl

set_option maxHeartbeats 1000000 in
/-- The first stretch leaves `main_arg7` alone. -/
theorem kA_main_arg7 : StableHlo.after hostOps2 U (Proc.devRef .tc main_arg7) = U (Proc.devRef .tc main_arg7) := by
  dsimp only [hostOps2]
  after_results_simp <;> rfl

set_option maxHeartbeats 1000000 in
/-- The first stretch leaves `main_arg8` alone. -/
theorem kA_main_arg8 : StableHlo.after hostOps2 U (Proc.devRef .tc main_arg8) = U (Proc.devRef .tc main_arg8) := by
  dsimp only [hostOps2]
  after_results_simp <;> rfl

set_option maxHeartbeats 1000000 in
/-- The concatenated operand of the dense part, read off the clip and the last stretch. -/
theorem cb24 : StableHlo.after hostOps2_2 (StableHlo.after hostOps2_1 U) (Proc.devRef .tc main_v72)
    = catDiv (U (Proc.devRef .tc main_v51)) (U (Proc.devRef .tc main_v64)) (clipBy (U (Proc.devRef .tc main_cst_12)) (U (Proc.devRef .tc main_v67))) := by
  dsimp only [hostOps2_1, hostOps2_2]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)

set_option maxHeartbeats 1000000 in
/-- The transposed weights. -/
theorem cb25 : StableHlo.after hostOps2_2 (StableHlo.after hostOps2_1 U) (Proc.devRef .tc main_v73) = transpose S256x64 [1, 0] (U (Proc.devRef .tc main_arg7)) transposes_S64x256_S256x64_1_0 := by
  dsimp only [hostOps2_1, hostOps2_2]
  after_results_simp <;> rfl

set_option maxHeartbeats 1000000 in
/-- The bias as a row. -/
theorem cb26 : StableHlo.after hostOps2_2 (StableHlo.after hostOps2_1 U) (Proc.devRef .tc main_v74) = shapeCast _ (U (Proc.devRef .tc main_arg8)) shapeCasts_S64_S1x64 := by
  dsimp only [hostOps2_1, hostOps2_2]
  after_results_simp <;> rfl

/-! ## Composed: the call's operands at entry -/

variable (m : (ℓ : Loc nD τ sig) → Buf (Elt Ideal) ℓ) (ρ : Dev nD → PrngReg)

/-- The concatenated operand: [x | A x] of the layer's input. -/
theorem entry_h (c : Dev nD) : V11 (F := Ideal) m ρ c main_v72
    = aggRaw (W8 m ρ c (Proc.devRef .tc main_v51)) (W8 m ρ c (Proc.devRef .tc main_v1)) (W8 m ρ c (Proc.devRef .tc main_v3)) (W8 m ρ c (Proc.devRef .tc main_arg2)) := by
  show StableHlo.after hostOps2_2 (StableHlo.after hostOps2_1 (StableHlo.after hostOps2 (W8 m ρ c))) (Proc.devRef .tc main_v72) = _
  rw [cb24, kA_main_v51, a16, ac, a19]
  rfl

/-- The transposed weights. -/
theorem entry_w (c : Dev nD) : V11 (F := Ideal) m ρ c main_v73 = transpose S256x64 [1, 0] (W8 m ρ c (Proc.devRef .tc main_arg7)) transposes_S64x256_S256x64_1_0 := by
  show StableHlo.after hostOps2_2 (StableHlo.after hostOps2_1 (StableHlo.after hostOps2 (W8 m ρ c))) (Proc.devRef .tc main_v73) = _
  rw [cb25, kA_main_arg7]

/-- The bias row. -/
theorem entry_b (c : Dev nD) : V11 (F := Ideal) m ρ c main_v74 = shapeCast _ (W8 m ρ c (Proc.devRef .tc main_arg8)) shapeCasts_S64_S1x64 := by
  show StableHlo.after hostOps2_2 (StableHlo.after hostOps2_1 (StableHlo.after hostOps2 (W8 m ρ c))) (Proc.devRef .tc main_v74) = _
  rw [cb26, kA_main_arg8]

/-! ## What later layers still read -/

end Cert.Sage.HostK2

end
-- ==== Proof.KernelValue.lean ====
/-
  The idealized kernel's result array, as a function of the nine arguments.

  The fold of @main's segments at the result buffer is the third pallas_call's result; each call's result is the dense
  part of its layer applied to the operands it finds at entry (Region0–2), and those are [x | A x] of the layer's
  input, the transposed weights and the bias as a row (HostK0–2), the input of a later layer being the result of the
  call before it, the edge index vectors and weights the ones the first layer's host operations computed.  A bias row
  [1, N] read at (0, q) is the bias vector at q, so each call's result is the dense layer of `Layers`, and the
  composition is `net`.
-/
import proofs.«166120_j80522046866010_1_alg».proof.Proof.Gen.KernelIdeal.Frame
import proofs.«166120_j80522046866010_1_alg».proof.Proof.Layers
import proofs.«166120_j80522046866010_1_alg».proof.Proof.Region0
import proofs.«166120_j80522046866010_1_alg».proof.Proof.Region1
import proofs.«166120_j80522046866010_1_alg».proof.Proof.Region2
import proofs.«166120_j80522046866010_1_alg».proof.Proof.HostK0
import proofs.«166120_j80522046866010_1_alg».proof.Proof.HostK1
import proofs.«166120_j80522046866010_1_alg».proof.Proof.HostK2
import Idealize.ShloMosaic.Lib.Pipeline.Value

set_option maxRecDepth 16384

noncomputable section

namespace Cert.Sage.KernelValue

open Idealize.ShloMosaic Idealize.ShloMosaic.TcCoe Idealize.ShloMosaic.ValueIdx Idealize.SL.Sem
open Cert.KernelIdeal Cert.KernelIdeal.Gen Cert.Sage

/-! ## The bias row is the bias vector -/

theorem bias_row128 (b : FVec Ideal S128 .f32) (q : Fin 128) :
    (shapeCast S1x128 b shapeCasts_S128_S1x128 : S1x128.Idx → EReal) (ix2 (0 : Fin 1) q) = b (ix1 q) :=
  (shapeCast_addUnit_apply ![128] b shapeCasts_S128_S1x128 (ix2 (0 : Fin 1) q)).trans
    (congrArg b (funext fun a => by match a with | ⟨0, _⟩ => rfl))

theorem bias_row64 (b : FVec Ideal S64 .f32) (q : Fin 64) :
    (shapeCast S1x64 b shapeCasts_S64_S1x64 : S1x64.Idx → EReal) (ix2 (0 : Fin 1) q) = b (ix1 q) :=
  (shapeCast_addUnit_apply ![64] b shapeCasts_S64_S1x64 (ix2 (0 : Fin 1) q)).trans
    (congrArg b (funext fun a => by match a with | ⟨0, _⟩ => rfl))

/-- The first call's result on the bias row of `b` is the hidden dense layer. -/
theorem out0_dense (h : FVec Ideal S50000x256 .f32) (wt : FVec Ideal S256x128 .f32) (b : FVec Ideal S128 .f32) :
    Region0.out h wt (shapeCast S1x128 b shapeCasts_S128_S1x128) = denseRelu h wt b := by
  funext i
  obtain ⟨p, q, rfl⟩ : ∃ (p : Fin 50000) (q : Fin 128), i = ix2 p q := ⟨i 0, i 1, eq_ix2 i⟩
  show max ((∑ k : Fin 256, h (ix2 p k) * wt (ix2 k q)) + (shapeCast S1x128 b shapeCasts_S128_S1x128 : S1x128.Idx → EReal) (ix2 (0 : Fin 1) q)) _
     = max ((∑ k : Fin 256, h (ix2 p k) * wt (ix2 k q)) + b (ix1 q)) _
  rw [bias_row128]

theorem out1_dense (h : FVec Ideal S50000x256 .f32) (wt : FVec Ideal S256x128 .f32) (b : FVec Ideal S128 .f32) :
    Region1.out h wt (shapeCast S1x128 b shapeCasts_S128_S1x128) = denseRelu h wt b := by
  funext i
  obtain ⟨p, q, rfl⟩ : ∃ (p : Fin 50000) (q : Fin 128), i = ix2 p q := ⟨i 0, i 1, eq_ix2 i⟩
  show max ((∑ k : Fin 256, h (ix2 p k) * wt (ix2 k q)) + (shapeCast S1x128 b shapeCasts_S128_S1x128 : S1x128.Idx → EReal) (ix2 (0 : Fin 1) q)) _
     = max ((∑ k : Fin 256, h (ix2 p k) * wt (ix2 k q)) + b (ix1 q)) _
  rw [bias_row128]

theorem out2_dense (h : FVec Ideal S50000x256 .f32) (wt : FVec Ideal S256x64 .f32) (b : FVec Ideal S64 .f32) :
    Region2.out h wt (shapeCast S1x64 b shapeCasts_S64_S1x64) = denseLin h wt b := by
  funext i
  obtain ⟨p, q, rfl⟩ : ∃ (p : Fin 50000) (q : Fin 64), i = ix2 p q := ⟨i 0, i 1, eq_ix2 i⟩
  show (∑ k : Fin 256, h (ix2 p k) * wt (ix2 k q)) + (shapeCast S1x64 b shapeCasts_S64_S1x64 : S1x64.Idx → EReal) (ix2 (0 : Fin 1) q)
     = (∑ k : Fin 256, h (ix2 p k) * wt (ix2 k q)) + b (ix1 q)
  rw [bias_row64]

/-! ## The three layers in turn -/

variable (m : (ℓ : Loc nD τ sig) → Buf (Elt Ideal) ℓ) (ρ : Dev nD → PrngReg)

/-- The first hidden layer. -/
def h1 (c : Dev nD) : FVec Ideal S50000x128 .f32 :=
  denseRelu (aggCat (m ((c.tc : Thread nD τ).loc main_arg0)) (m ((c.tc : Thread nD τ).loc main_arg1)) (m ((c.tc : Thread nD τ).loc main_arg2))) (tr128 (m ((c.tc : Thread nD τ).loc main_arg3))) (m ((c.tc : Thread nD τ).loc main_arg4))

/-- The second hidden layer. -/
def h2 (c : Dev nD) : FVec Ideal S50000x128 .f32 :=
  denseRelu (aggCat (h1 m c) (m ((c.tc : Thread nD τ).loc main_arg1)) (m ((c.tc : Thread nD τ).loc main_arg2))) (tr128 (m ((c.tc : Thread nD τ).loc main_arg5))) (m ((c.tc : Thread nD τ).loc main_arg6))

/-- The first call leaves the first hidden layer in its result buffer. -/
theorem W4_v27 (c : Dev nD) : W4 (F := Ideal) m ρ c (Proc.devRef .tc main_v27) = h1 m c := by
  refine (W4_arr m ρ c 3).trans ((Region0.final (V3 m ρ) c).trans ?_)
  rw [HostK0.entry_h, HostK0.entry_w, HostK0.entry_b]
  exact out0_dense _ _ _

theorem W4_v1 (c : Dev nD) : W4 (F := Ideal) m ρ c (Proc.devRef .tc main_v1) = rowOf (m ((c.tc : Thread nD τ).loc main_arg1)) :=
  (W4_of_ne m ρ c main_v1 (by decide)).trans (HostK0.pass_main_v1 m ρ c)
theorem W4_v3 (c : Dev nD) : W4 (F := Ideal) m ρ c (Proc.devRef .tc main_v3) = colOf (m ((c.tc : Thread nD τ).loc main_arg1)) :=
  (W4_of_ne m ρ c main_v3 (by decide)).trans (HostK0.pass_main_v3 m ρ c)
theorem W4_arg2 (c : Dev nD) : W4 (F := Ideal) m ρ c (Proc.devRef .tc main_arg2) = (m ((c.tc : Thread nD τ).loc main_arg2)) :=
  (W4_of_ne m ρ c main_arg2 (by decide)).trans (HostK0.pass_main_arg2 m ρ c)
theorem W4_arg5 (c : Dev nD) : W4 (F := Ideal) m ρ c (Proc.devRef .tc main_arg5) = (m ((c.tc : Thread nD τ).loc main_arg5)) :=
  (W4_of_ne m ρ c main_arg5 (by decide)).trans (HostK0.pass_main_arg5 m ρ c)
theorem W4_arg6 (c : Dev nD) : W4 (F := Ideal) m ρ c (Proc.devRef .tc main_arg6) = (m ((c.tc : Thread nD τ).loc main_arg6)) :=
  (W4_of_ne m ρ c main_arg6 (by decide)).trans (HostK0.pass_main_arg6 m ρ c)
theorem W4_arg7 (c : Dev nD) : W4 (F := Ideal) m ρ c (Proc.devRef .tc main_arg7) = (m ((c.tc : Thread nD τ).loc main_arg7)) :=
  (W4_of_ne m ρ c main_arg7 (by decide)).trans (HostK0.pass_main_arg7 m ρ c)
theorem W4_arg8 (c : Dev nD) : W4 (F := Ideal) m ρ c (Proc.devRef .tc main_arg8) = (m ((c.tc : Thread nD τ).loc main_arg8)) :=
  (W4_of_ne m ρ c main_arg8 (by decide)).trans (HostK0.pass_main_arg8 m ρ c)

/-- The second call leaves the second hidden layer in its result buffer. -/
theorem W8_v51 (c : Dev nD) : W8 (F := Ideal) m ρ c (Proc.devRef .tc main_v51) = h2 m c := by
  refine (W8_arr m ρ c 3).trans ((Region1.final (V7 m ρ) c).trans ?_)
  rw [HostK1.entry_h, HostK1.entry_w, HostK1.entry_b, W4_v27, W4_v1, W4_v3, W4_arg2, W4_arg5, W4_arg6]
  exact out1_dense _ _ _

theorem W8_v1 (c : Dev nD) : W8 (F := Ideal) m ρ c (Proc.devRef .tc main_v1) = rowOf (m ((c.tc : Thread nD τ).loc main_arg1)) :=
  ((W8_of_ne m ρ c main_v1 (by decide)).trans (HostK1.pass_main_v1 m ρ c)).trans (W4_v1 m ρ c)
theorem W8_v3 (c : Dev nD) : W8 (F := Ideal) m ρ c (Proc.devRef .tc main_v3) = colOf (m ((c.tc : Thread nD τ).loc main_arg1)) :=
  ((W8_of_ne m ρ c main_v3 (by decide)).trans (HostK1.pass_main_v3 m ρ c)).trans (W4_v3 m ρ c)
theorem W8_arg2 (c : Dev nD) : W8 (F := Ideal) m ρ c (Proc.devRef .tc main_arg2) = (m ((c.tc : Thread nD τ).loc main_arg2)) :=
  ((W8_of_ne m ρ c main_arg2 (by decide)).trans (HostK1.pass_main_arg2 m ρ c)).trans (W4_arg2 m ρ c)
theorem W8_arg7 (c : Dev nD) : W8 (F := Ideal) m ρ c (Proc.devRef .tc main_arg7) = (m ((c.tc : Thread nD τ).loc main_arg7)) :=
  ((W8_of_ne m ρ c main_arg7 (by decide)).trans (HostK1.pass_main_arg7 m ρ c)).trans (W4_arg7 m ρ c)
theorem W8_arg8 (c : Dev nD) : W8 (F := Ideal) m ρ c (Proc.devRef .tc main_arg8) = (m ((c.tc : Thread nD τ).loc main_arg8)) :=
  ((W8_of_ne m ρ c main_arg8 (by decide)).trans (HostK1.pass_main_arg8 m ρ c)).trans (W4_arg8 m ρ c)

/-- The result array after the run: the last layer on the second hidden layer. -/
theorem value_layers (c : Dev nD) : W12 (F := Ideal) m ρ c (Proc.devRef .tc main_v75)
    = denseLin (aggCat (h2 m c) (m ((c.tc : Thread nD τ).loc main_arg1)) (m ((c.tc : Thread nD τ).loc main_arg2))) (tr64 (m ((c.tc : Thread nD τ).loc main_arg7))) (m ((c.tc : Thread nD τ).loc main_arg8)) := by
  refine (W12_arr m ρ c 3).trans ((Region2.final (V11 m ρ) c).trans ?_)
  rw [HostK2.entry_h, HostK2.entry_w, HostK2.entry_b, W8_v51, W8_v1, W8_v3, W8_arg2, W8_arg7, W8_arg8]
  exact out2_dense _ _ _

/-- … which is `net` of the nine arguments. -/
theorem value (c : Dev nD) : W12 (F := Ideal) m ρ c (Proc.devRef .tc main_v75)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  value_layers m ρ c

end Cert.Sage.KernelValue

end
-- ==== Proof.RefRun.lean ====
/-
  The idealized reference's run, read.

  @main is a straight line of 109 host operations; every weakly fair execution runs them in order, so each buffer ends
  at the fold of the operations over the launch contents.  The line is three layers, each of five stretches — index
  wrap, gather, scale and the two scatter-adds; the clip of the degree; divide and concatenate; transpose,
  `dot_general`, bias; relu — and the fold is read one stretch at a time from arbitrary contents, then composed: the
  result buffer ends at the three printed layers of the launch contents, which is `net` of the nine arguments
  (Layers: `ref_net`), and no operation writes an argument.
-/
import proofs.«166120_j80522046866010_1_alg».proof.Proof.Gen.ReferenceIdeal
import proofs.«166120_j80522046866010_1_alg».proof.Proof.Layers
import Idealize.ShloMosaic.Lib.StableHlo.Run
import Idealize.ShloMosaic.Lib.Pipeline.Frame

set_option maxRecDepth 16384

noncomputable section

namespace Cert.Sage.RefRun

open Cert.ReferenceIdeal Cert.ReferenceIdeal.Gen Idealize.ShloMosaic Idealize.ShloMosaic.TcCoe Idealize.SL.Sem Idealize.ShloMosaic.StableHlo
open Cert.Sage

/-- @main's 109 operations, in order (a called function's operations stand in its call's place). -/
abbrev ops {F : FTy → Type} [FloatOps F] : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x128 ![0, 1] bcast_S800000x1_S800000x128_0_1 : (⟨S800000x1, .f32⟩ : BufTy).Contents (Elt F) → (⟨S800000x128, .f32⟩ : BufTy).Contents (Elt F)),
    binary main_v10 main_v12 main_v13 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v1 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x00000000#32),
    unary main_cst_1 main_v17 (broadcastInDim S50000 ![] bcast_S_S50000 : (⟨S_, .f32⟩ : BufTy).Contents (Elt F) → (⟨S50000, .f32⟩ : BufTy).Contents (Elt F)),
    unary main_v1 main_v18 (broadcastInDim S800000x1 ![0] bcast_S800000_S800000x1_0 : (⟨S800000, .i32⟩ : BufTy).Contents (Elt F) → (⟨S800000x1, .i32⟩ : BufTy).Contents (Elt F)),
    ternary main_v17 main_v18 main_arg2 main_v19 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v19) (TRef.of (T := ⟨S50000, .f32⟩) main_v20) maximumf,
    unary main_v20 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_v16 main_v22 main_v23 (Host.divf : (⟨S50000x128, .f32⟩ : BufTy).Contents (Elt F) → (⟨S50000x128, .f32⟩ : BufTy).Contents (Elt F) → (⟨S50000x128, .f32⟩ : BufTy).Contents (Elt F)),
    binary main_arg0 main_v23 main_v24 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg3 main_v25 ((transpose S256x128 [1, 0] · transposes_S128x256_S256x128_1_0) : (⟨S128x256, .f32⟩ : BufTy).Contents (Elt F) → (⟨S256x128, .f32⟩ : BufTy).Contents (Elt F)),
    binary main_v24 main_v25 main_v26 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf,
    nullary main_c_3 (constantI S_ 32 0#32),
    unary main_c_3 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v37 main_v39 main_v40 (mulf : (⟨S800000x128, .f32⟩ : BufTy).Contents (Elt F) → (⟨S800000x128, .f32⟩ : BufTy).Contents (Elt F) → (⟨S800000x128, .f32⟩ : BufTy).Contents (Elt F)),
    nullary main_cst_5 (constant S_ .f32 0x00000000#32),
    unary main_cst_5 main_v41 (broadcastInDim S50000x128 ![] bcast_S_S50000x128 : (⟨S_, .f32⟩ : BufTy).Contents (Elt F) → (⟨S50000x128, .f32⟩ : BufTy).Contents (Elt F)),
    unary main_v1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_6 (constant S_ .f32 0x00000000#32),
    unary main_cst_6 main_v44 (broadcastInDim S50000 ![] bcast_S_S50000 : (⟨S_, .f32⟩ : BufTy).Contents (Elt F) → (⟨S50000, .f32⟩ : BufTy).Contents (Elt F)),
    unary main_v1 main_v45 (broadcastInDim S800000x1 ![0] bcast_S800000_S800000x1_0 : (⟨S800000, .i32⟩ : BufTy).Contents (Elt F) → (⟨S800000x1, .i32⟩ : BufTy).Contents (Elt F)),
    ternary main_v44 main_v45 main_arg2 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_7 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v46) (TRef.of (T := ⟨S50000, .f32⟩) main_v47) maximumf,
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v43 main_v49 main_v50 (Host.divf : (⟨S50000x128, .f32⟩ : BufTy).Contents (Elt F) → (⟨S50000x128, .f32⟩ : BufTy).Contents (Elt F) → (⟨S50000x128, .f32⟩ : BufTy).Contents (Elt F)),
    binary main_v30 main_v50 main_v51 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg5 main_v52 ((transpose S256x128 [1, 0] · transposes_S128x256_S256x128_1_0) : (⟨S128x256, .f32⟩ : BufTy).Contents (Elt F) → (⟨S256x128, .f32⟩ : BufTy).Contents (Elt F)),
    binary main_v51 main_v52 main_v53 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v56) (TRef.of (T := ⟨S50000x128, .f32⟩) main_call3_v0) (TRef.of (T := ⟨S50000x128, .f32⟩) main_v57) maximumf,
    nullary main_c_8 (constantI S_ 32 0#32),
    unary main_c_8 main_v58 (broadcastInDim S800000 ![] bcast_S_S800000 : (⟨S_, .i32⟩ : BufTy).Contents (Elt F) → (⟨S800000, .i32⟩ : BufTy).Contents (Elt F)),
    binary main_v3 main_v58 main_v59 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v60 (broadcastInDim S800000 ![] bcast_S_S800000 : (⟨S_, .i32⟩ : BufTy).Contents (Elt F) → (⟨S800000, .i32⟩ : BufTy).Contents (Elt F)),
    binary main_v3 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v3 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v65 (broadcastInDim S800000x1 ![0] bcast_S800000_S800000x1_0 : (⟨S800000, .f32⟩ : BufTy).Contents (Elt F) → (⟨S800000x1, .f32⟩ : BufTy).Contents (Elt F)),
    unary main_v65 main_v66 (broadcastInDim S800000x128 ![0, 1] bcast_S800000x1_S800000x128_0_1 : (⟨S800000x1, .f32⟩ : BufTy).Contents (Elt F) → (⟨S800000x128, .f32⟩ : BufTy).Contents (Elt F)),
    binary main_v64 main_v66 main_v67 (mulf : (⟨S800000x128, .f32⟩ : BufTy).Contents (Elt F) → (⟨S800000x128, .f32⟩ : BufTy).Contents (Elt F) → (⟨S800000x128, .f32⟩ : BufTy).Contents (Elt F)),
    nullary main_cst_10 (constant S_ .f32 0x00000000#32),
    unary main_cst_10 main_v68 (broadcastInDim S50000x128 ![] bcast_S_S50000x128 : (⟨S_, .f32⟩ : BufTy).Contents (Elt F) → (⟨S50000x128, .f32⟩ : BufTy).Contents (Elt F)),
    unary main_v1 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x00000000#32),
    unary main_cst_11 main_v71 (broadcastInDim S50000 ![] bcast_S_S50000 : (⟨S_, .f32⟩ : BufTy).Contents (Elt F) → (⟨S50000, .f32⟩ : BufTy).Contents (Elt F)),
    unary main_v1 main_v72 (broadcastInDim S800000x1 ![0] bcast_S800000_S800000x1_0 : (⟨S800000, .i32⟩ : BufTy).Contents (Elt F) → (⟨S800000x1, .i32⟩ : BufTy).Contents (Elt F)),
    ternary main_v71 main_v72 main_arg2 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x3F800000#32),
    TRef.unary (TRef.of (T := ⟨S_, .f32⟩) main_cst_12) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v73) (TRef.of (T := ⟨S50000, .f32⟩) main_v74) maximumf,
    unary main_v74 main_v75 (broadcastInDim S50000x1 ![0] bcast_S50000_S50000x1_0 : (⟨S50000, .f32⟩ : BufTy).Contents (Elt F) → (⟨S50000x1, .f32⟩ : BufTy).Contents (Elt F)),
    unary main_v75 main_v76 (broadcastInDim S50000x128 ![0, 1] bcast_S50000x1_S50000x128_0_1 : (⟨S50000x1, .f32⟩ : BufTy).Contents (Elt F) → (⟨S50000x128, .f32⟩ : BufTy).Contents (Elt F)),
    binary main_v70 main_v76 main_v77 (Host.divf : (⟨S50000x128, .f32⟩ : BufTy).Contents (Elt F) → (⟨S50000x128, .f32⟩ : BufTy).Contents (Elt F) → (⟨S50000x128, .f32⟩ : BufTy).Contents (Elt F)),
    binary main_v57 main_v77 main_v78 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg7 main_v79 ((transpose S256x64 [1, 0] · transposes_S64x256_S256x64_1_0) : (⟨S64x256, .f32⟩ : BufTy).Contents (Elt F) → (⟨S256x64, .f32⟩ : BufTy).Contents (Elt F)),
    binary main_v78 main_v79 main_v80 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg8 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq {F : FTy → Type} [FloatOps F] (c : Dev nD) : main (F := F) c = seq (ops (F := F)) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub {F : FTy → Type} [FloatOps F] : (ops (F := F)).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub ..⟩

variable (U : Valuation τ sig (Elt Ideal))

/-! ## Layer 0: its stretches, read from any contents `U` -/

abbrev sA0 {F : FTy → Type} [FloatOps F] : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v3 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v3 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x128 ![0, 1] bcast_S800000x1_S800000x128_0_1 : (⟨S800000x1, .f32⟩ : BufTy).Contents (Elt F) → (⟨S800000x128, .f32⟩ : BufTy).Contents (Elt F)),
    binary main_v10 main_v12 main_v13 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v1 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x00000000#32),
    unary main_cst_1 main_v17 (broadcastInDim S50000 ![] bcast_S_S50000 : (⟨S_, .f32⟩ : BufTy).Contents (Elt F) → (⟨S50000, .f32⟩ : BufTy).Contents (Elt F)),
    unary main_v1 main_v18 (broadcastInDim S800000x1 ![0] bcast_S800000_S800000x1_0 : (⟨S800000, .i32⟩ : BufTy).Contents (Elt F) → (⟨S800000x1, .i32⟩ : BufTy).Contents (Elt F)),
    ternary main_v17 main_v18 main_arg2 main_v19 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32) ]
abbrev sClip0 {F : FTy → Type} [FloatOps F] : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v19) (TRef.of (T := ⟨S50000, .f32⟩) main_v20) maximumf ]
abbrev sCat0 {F : FTy → Type} [FloatOps F] : List (HloOp τ sig (Elt F)) :=
  [ unary main_v20 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_v16 main_v22 main_v23 (Host.divf : (⟨S50000x128, .f32⟩ : BufTy).Contents (Elt F) → (⟨S50000x128, .f32⟩ : BufTy).Contents (Elt F) → (⟨S50000x128, .f32⟩ : BufTy).Contents (Elt F)),
    binary main_arg0 main_v23 main_v24 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]
abbrev sLin0 {F : FTy → Type} [FloatOps F] : List (HloOp τ sig (Elt F)) :=
  [ unary main_arg3 main_v25 ((transpose S256x128 [1, 0] · transposes_S128x256_S256x128_1_0) : (⟨S128x256, .f32⟩ : BufTy).Contents (Elt F) → (⟨S256x128, .f32⟩ : BufTy).Contents (Elt F)),
    binary main_v24 main_v25 main_v26 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)) ]
abbrev sRelu0 {F : FTy → Type} [FloatOps F] : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v29) (TRef.of (T := ⟨S50000x128, .f32⟩) main_call1_v0) (TRef.of (T := ⟨S50000x128, .f32⟩) main_v30) maximumf ]

set_option maxHeartbeats 1000000 in
theorem a16_0 : StableHlo.after (sA0 (F := Ideal)) U (Proc.devRef .tc main_v16) = sumMsg (U (Proc.devRef .tc main_arg0)) (rowOf (U (Proc.devRef .tc main_arg1))) (colOf (U (Proc.devRef .tc main_arg1))) (U (Proc.devRef .tc main_arg2)) := by
  dsimp only [sA0]
  after_results_simp <;> rfl
set_option maxHeartbeats 1000000 in
theorem a19_0 : StableHlo.after (sA0 (F := Ideal)) U (Proc.devRef .tc main_v19) = sumW (rowOf (U (Proc.devRef .tc main_arg1))) (U (Proc.devRef .tc main_arg2)) := by
  dsimp only [sA0]
  after_results_simp <;> rfl
set_option maxHeartbeats 1000000 in
theorem ac_0 : StableHlo.after (sA0 (F := Ideal)) U (Proc.devRef .tc main_cst_2) = constant (F := Ideal) S_ .f32 0x3F800000#32 := by
  dsimp only [sA0]
  after_results_simp <;> rfl
set_option maxHeartbeats 1000000 in
theorem kA_0 : StableHlo.after (sA0 (F := Ideal)) U (Proc.devRef .tc main_arg0) = U (Proc.devRef .tc main_arg0) := by
  dsimp only [sA0]
  after_results_simp <;> rfl
set_option maxHeartbeats 1000000 in
theorem cb24_0 : StableHlo.after (sCat0 (F := Ideal)) (StableHlo.after (sClip0 (F := Ideal)) U) (Proc.devRef .tc main_v24)
    = catDiv (U (Proc.devRef .tc main_arg0)) (U (Proc.devRef .tc main_v16)) (clipBy (U (Proc.devRef .tc main_cst_2)) (U (Proc.devRef .tc main_v19))) := by
  dsimp only [sClip0, sCat0]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)
set_option maxHeartbeats 1000000 in
theorem lin29_0 : StableHlo.after (sLin0 (F := Ideal)) U (Proc.devRef .tc main_v29) = refPre (U (Proc.devRef .tc main_v24)) (U (Proc.devRef .tc main_arg3)) (U (Proc.devRef .tc main_arg4)) := by
  dsimp only [sLin0]
  after_results_simp <;> rfl
set_option maxHeartbeats 1000000 in
theorem relu30_0 : StableHlo.after (sRelu0 (F := Ideal)) U (Proc.devRef .tc main_v30) = relu0 (U (Proc.devRef .tc main_v29)) := by
  dsimp only [sRelu0]
  after_results_simp <;> rfl
set_option maxHeartbeats 1000000 in
theorem kW_0_main_arg3 : StableHlo.after (sCat0 (F := Ideal)) (StableHlo.after (sClip0 (F := Ideal)) (StableHlo.after (sA0 (F := Ideal)) U)) (Proc.devRef .tc main_arg3) = U (Proc.devRef .tc main_arg3) := by
  dsimp only [sA0, sClip0, sCat0]
  after_results_simp <;> rfl
set_option maxHeartbeats 1000000 in
theorem kW_0_main_arg4 : StableHlo.after (sCat0 (F := Ideal)) (StableHlo.after (sClip0 (F := Ideal)) (StableHlo.after (sA0 (F := Ideal)) U)) (Proc.devRef .tc main_arg4) = U (Proc.devRef .tc main_arg4) := by
  dsimp only [sA0, sClip0, sCat0]
  after_results_simp <;> rfl

/-- Layer 0 as a whole: its result buffer holds the printed layer of what its input buffers held. -/
theorem layer0 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_v30)
    = refRelu (aggRaw (U (Proc.devRef .tc main_arg0)) (rowOf (U (Proc.devRef .tc main_arg1))) (colOf (U (Proc.devRef .tc main_arg1))) (U (Proc.devRef .tc main_arg2))) (U (Proc.devRef .tc main_arg3)) (U (Proc.devRef .tc main_arg4)) := by
  rw [relu30_0, lin29_0, cb24_0, kW_0_main_arg3, kW_0_main_arg4, kA_0, a16_0, ac_0, a19_0]
  rfl

set_option maxHeartbeats 1000000 in
theorem pass0_main_v1 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_v1) = rowOf (U (Proc.devRef .tc main_arg1)) := by
  dsimp only [sA0, sClip0, sCat0, sLin0, sRelu0]
  after_results_simp <;> rfl
set_option maxHeartbeats 1000000 in
theorem pass0_main_v3 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_v3) = colOf (U (Proc.devRef .tc main_arg1)) := by
  dsimp only [sA0, sClip0, sCat0, sLin0, sRelu0]
  after_results_simp <;> rfl
set_option maxHeartbeats 1000000 in
theorem pass0_main_arg2 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_arg2) = U (Proc.devRef .tc main_arg2) := by
  dsimp only [sA0, sClip0, sCat0, sLin0, sRelu0]
  after_results_simp <;> rfl
set_option maxHeartbeats 1000000 in
theorem pass0_main_arg5 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_arg5) = U (Proc.devRef .tc main_arg5) := by
  dsimp only [sA0, sClip0, sCat0, sLin0, sRelu0]
  after_results_simp <;> rfl
set_option maxHeartbeats 1000000 in
theorem pass0_main_arg6 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_arg6) = U (Proc.devRef .tc main_arg6) := by
  dsimp only [sA0, sClip0, sCat0, sLin0, sRelu0]
  after_results_simp <;> rfl
set_option maxHeartbeats 1000000 in
theorem pass0_main_arg7 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_arg7) = U (Proc.devRef .tc main_arg7) := by
  dsimp only [sA0, sClip0, sCat0, sLin0, sRelu0]
  after_results_simp <;> rfl
set_option maxHeartbeats 1000000 in
theorem pass0_main_arg8 : StableHlo.after (sRelu0 (F := Ideal)) (StableHlo.after (sLin0 (F := Ideal)) (StableHlo.after (sCat0 (F := Ideal)) (StableHlo.after (sClip0 (F := Ideal)) (StableHlo.after (sA0 (F := Ideal)) U)))) (Proc.devRef .tc main_arg8) = U (Proc.devRef .tc main_arg8) := by
  dsimp only [sA0, sClip0, sCat0, sLin0, sRelu0]
  after_results_simp <;> rfl

/-! ## Layer 1: its stretches, read from any contents `U` -/

abbrev sA1 {F : FTy → Type} [FloatOps F] : List (HloOp τ sig (Elt F)) :=
  [ nullary main_c_3 (constantI S_ 32 0#32),
    unary main_c_3 main_v31 (broadcastInDim S800000 ![] bcast_S_S800000 : (⟨S_, .i32⟩ : BufTy).Contents (Elt F) → (⟨S800000, .i32⟩ : BufTy).Contents (Elt F)),
    binary main_v3 main_v31 main_v32 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v33 (broadcastInDim S800000 ![] bcast_S_S800000 : (⟨S_, .i32⟩ : BufTy).Contents (Elt F) → (⟨S800000, .i32⟩ : BufTy).Contents (Elt F)),
    binary main_v3 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v3 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v38 (broadcastInDim S800000x1 ![0] bcast_S800000_S800000x1_0 : (⟨S800000, .f32⟩ : BufTy).Contents (Elt F) → (⟨S800000x1, .f32⟩ : BufTy).Contents (Elt F)),
    unary main_v38 main_v39 (broadcastInDim S800000x128 ![0, 1] bcast_S800000x1_S800000x128_0_1 : (⟨S800000x1, .f32⟩ : BufTy).Contents (Elt F) → (⟨S800000x128, .f32⟩ : BufTy).Contents (Elt F)),
    binary main_v37 main_v39 main_v40 (mulf : (⟨S800000x128, .f32⟩ : BufTy).Contents (Elt F) → (⟨S800000x128, .f32⟩ : BufTy).Contents (Elt F) → (⟨S800000x128, .f32⟩ : BufTy).Contents (Elt F)),
    nullary main_cst_5 (constant S_ .f32 0x00000000#32),
    unary main_cst_5 main_v41 (broadcastInDim S50000x128 ![] bcast_S_S50000x128 : (⟨S_, .f32⟩ : BufTy).Contents (Elt F) → (⟨S50000x128, .f32⟩ : BufTy).Contents (Elt F)),
    unary main_v1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_6 (constant S_ .f32 0x00000000#32),
    unary main_cst_6 main_v44 (broadcastInDim S50000 ![] bcast_S_S50000 : (⟨S_, .f32⟩ : BufTy).Contents (Elt F) → (⟨S50000, .f32⟩ : BufTy).Contents (Elt F)),
    unary main_v1 main_v45 (broadcastInDim S800000x1 ![0] bcast_S800000_S800000x1_0 : (⟨S800000, .i32⟩ : BufTy).Contents (Elt F) → (⟨S800000x1, .i32⟩ : BufTy).Contents (Elt F)),
    ternary main_v44 main_v45 main_arg2 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_7 (constant S_ .f32 0x3F800000#32) ]
abbrev sClip1 {F : FTy → Type} [FloatOps F] : List (HloOp τ sig (Elt F)) :=
  [ TRef.unary (TRef.of (T := ⟨S_, .f32⟩) main_cst_7) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v46) (TRef.of (T := ⟨S50000, .f32⟩) main_v47) maximumf ]
abbrev sCat1 {F : FTy → Type} [FloatOps F] : List (HloOp τ sig (Elt F)) :=
  [ unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v43 main_v49 main_v50 (Host.divf : (⟨S50000x128, .f32⟩ : BufTy).Contents (Elt F) → (⟨S50000x128, .f32⟩ : BufTy).Contents (Elt F) → (⟨S50000x128, .f32⟩ : BufTy).Contents (Elt F)),
    binary main_v30 main_v50 main_v51 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]
abbrev sLin1 {F : FTy → Type} [FloatOps F] : List (HloOp τ sig (Elt F)) :=
  [ unary main_arg5 main_v52 ((transpose S256x128 [1, 0] · transposes_S128x256_S256x128_1_0) : (⟨S128x256, .f32⟩ : BufTy).Contents (Elt F) → (⟨S256x128, .f32⟩ : BufTy).Contents (Elt F)),
    binary main_v51 main_v52 main_v53 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)) ]
abbrev sRelu1 {F : FTy → Type} [FloatOps F] : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v56) (TRef.of (T := ⟨S50000x128, .f32⟩) main_call3_v0) (TRef.of (T := ⟨S50000x128, .f32⟩) main_v57) maximumf ]

set_option maxHeartbeats 1000000 in
theorem a16_1 : StableHlo.after (sA1 (F := Ideal)) U (Proc.devRef .tc main_v43) = sumMsg (U (Proc.devRef .tc main_v30)) (U (Proc.devRef .tc main_v1)) (U (Proc.devRef .tc main_v3)) (U (Proc.devRef .tc main_arg2)) := by
  dsimp only [sA1]
  after_results_simp <;> rfl
set_option maxHeartbeats 1000000 in
theorem a19_1 : StableHlo.after (sA1 (F := Ideal)) U (Proc.devRef .tc main_v46) = sumW (U (Proc.devRef .tc main_v1)) (U (Proc.devRef .tc main_arg2)) := by
  dsimp only [sA1]
  after_results_simp <;> rfl
set_option maxHeartbeats 1000000 in
theorem ac_1 : StableHlo.after (sA1 (F := Ideal)) U (Proc.devRef .tc main_cst_7) = constant (F := Ideal) S_ .f32 0x3F800000#32 := by
  dsimp only [sA1]
  after_results_simp <;> rfl
set_option maxHeartbeats 1000000 in
theorem kA_1 : StableHlo.after (sA1 (F := Ideal)) U (Proc.devRef .tc main_v30) = U (Proc.devRef .tc main_v30) := by
  dsimp only [sA1]
  after_results_simp <;> rfl
set_option maxHeartbeats 1000000 in
theorem cb24_1 : StableHlo.after (sCat1 (F := Ideal)) (StableHlo.after (sClip1 (F := Ideal)) U) (Proc.devRef .tc main_v51)
    = catDiv (U (Proc.devRef .tc main_v30)) (U (Proc.devRef .tc main_v43)) (clipBy (U (Proc.devRef .tc main_cst_7)) (U (Proc.devRef .tc main_v46))) := by
  dsimp only [sClip1, sCat1]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)
set_option maxHeartbeats 1000000 in
theorem lin29_1 : StableHlo.after (sLin1 (F := Ideal)) U (Proc.devRef .tc main_v56) = refPre (U (Proc.devRef .tc main_v51)) (U (Proc.devRef .tc main_arg5)) (U (Proc.devRef .tc main_arg6)) := by
  dsimp only [sLin1]
  after_results_simp <;> rfl
set_option maxHeartbeats 1000000 in
theorem relu30_1 : StableHlo.after (sRelu1 (F := Ideal)) U (Proc.devRef .tc main_v57) = relu0 (U (Proc.devRef .tc main_v56)) := by
  dsimp only [sRelu1]
  after_results_simp <;> rfl
set_option maxHeartbeats 1000000 in
theorem kW_1_main_arg5 : StableHlo.after (sCat1 (F := Ideal)) (StableHlo.after (sClip1 (F := Ideal)) (StableHlo.after (sA1 (F := Ideal)) U)) (Proc.devRef .tc main_arg5) = U (Proc.devRef .tc main_arg5) := by
  dsimp only [sA1, sClip1, sCat1]
  after_results_simp <;> rfl
set_option maxHeartbeats 1000000 in
theorem kW_1_main_arg6 : StableHlo.after (sCat1 (F := Ideal)) (StableHlo.after (sClip1 (F := Ideal)) (StableHlo.after (sA1 (F := Ideal)) U)) (Proc.devRef .tc main_arg6) = U (Proc.devRef .tc main_arg6) := by
  dsimp only [sA1, sClip1, sCat1]
  after_results_simp <;> rfl

/-- Layer 1 as a whole: its result buffer holds the printed layer of what its input buffers held. -/
theorem layer1 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_v57)
    = refRelu (aggRaw (U (Proc.devRef .tc main_v30)) (U (Proc.devRef .tc main_v1)) (U (Proc.devRef .tc main_v3)) (U (Proc.devRef .tc main_arg2))) (U (Proc.devRef .tc main_arg5)) (U (Proc.devRef .tc main_arg6)) := by
  rw [relu30_1, lin29_1, cb24_1, kW_1_main_arg5, kW_1_main_arg6, kA_1, a16_1, ac_1, a19_1]
  rfl

set_option maxHeartbeats 1000000 in
theorem pass1_main_v1 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_v1) = U (Proc.devRef .tc main_v1) := by
  dsimp only [sA1, sClip1, sCat1, sLin1, sRelu1]
  after_results_simp <;> rfl
set_option maxHeartbeats 1000000 in
theorem pass1_main_v3 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_v3) = U (Proc.devRef .tc main_v3) := by
  dsimp only [sA1, sClip1, sCat1, sLin1, sRelu1]
  after_results_simp <;> rfl
set_option maxHeartbeats 1000000 in
theorem pass1_main_arg2 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_arg2) = U (Proc.devRef .tc main_arg2) := by
  dsimp only [sA1, sClip1, sCat1, sLin1, sRelu1]
  after_results_simp <;> rfl
set_option maxHeartbeats 1000000 in
theorem pass1_main_arg7 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_arg7) = U (Proc.devRef .tc main_arg7) := by
  dsimp only [sA1, sClip1, sCat1, sLin1, sRelu1]
  after_results_simp <;> rfl
set_option maxHeartbeats 1000000 in
theorem pass1_main_arg8 : StableHlo.after (sRelu1 (F := Ideal)) (StableHlo.after (sLin1 (F := Ideal)) (StableHlo.after (sCat1 (F := Ideal)) (StableHlo.after (sClip1 (F := Ideal)) (StableHlo.after (sA1 (F := Ideal)) U)))) (Proc.devRef .tc main_arg8) = U (Proc.devRef .tc main_arg8) := by
  dsimp only [sA1, sClip1, sCat1, sLin1, sRelu1]
  after_results_simp <;> rfl

/-! ## Layer 2: its stretches, read from any contents `U` -/

abbrev sA2 {F : FTy → Type} [FloatOps F] : List (HloOp τ sig (Elt F)) :=
  [ nullary main_c_8 (constantI S_ 32 0#32),
    unary main_c_8 main_v58 (broadcastInDim S800000 ![] bcast_S_S800000 : (⟨S_, .i32⟩ : BufTy).Contents (Elt F) → (⟨S800000, .i32⟩ : BufTy).Contents (Elt F)),
    binary main_v3 main_v58 main_v59 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v60 (broadcastInDim S800000 ![] bcast_S_S800000 : (⟨S_, .i32⟩ : BufTy).Contents (Elt F) → (⟨S800000, .i32⟩ : BufTy).Contents (Elt F)),
    binary main_v3 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v3 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg2 main_v65 (broadcastInDim S800000x1 ![0] bcast_S800000_S800000x1_0 : (⟨S800000, .f32⟩ : BufTy).Contents (Elt F) → (⟨S800000x1, .f32⟩ : BufTy).Contents (Elt F)),
    unary main_v65 main_v66 (broadcastInDim S800000x128 ![0, 1] bcast_S800000x1_S800000x128_0_1 : (⟨S800000x1, .f32⟩ : BufTy).Contents (Elt F) → (⟨S800000x128, .f32⟩ : BufTy).Contents (Elt F)),
    binary main_v64 main_v66 main_v67 (mulf : (⟨S800000x128, .f32⟩ : BufTy).Contents (Elt F) → (⟨S800000x128, .f32⟩ : BufTy).Contents (Elt F) → (⟨S800000x128, .f32⟩ : BufTy).Contents (Elt F)),
    nullary main_cst_10 (constant S_ .f32 0x00000000#32),
    unary main_cst_10 main_v68 (broadcastInDim S50000x128 ![] bcast_S_S50000x128 : (⟨S_, .f32⟩ : BufTy).Contents (Elt F) → (⟨S50000x128, .f32⟩ : BufTy).Contents (Elt F)),
    unary main_v1 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x00000000#32),
    unary main_cst_11 main_v71 (broadcastInDim S50000 ![] bcast_S_S50000 : (⟨S_, .f32⟩ : BufTy).Contents (Elt F) → (⟨S50000, .f32⟩ : BufTy).Contents (Elt F)),
    unary main_v1 main_v72 (broadcastInDim S800000x1 ![0] bcast_S800000_S800000x1_0 : (⟨S800000, .i32⟩ : BufTy).Contents (Elt F) → (⟨S800000x1, .i32⟩ : BufTy).Contents (Elt F)),
    ternary main_v71 main_v72 main_arg2 main_v73 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x3F800000#32) ]
abbrev sClip2 {F : FTy → Type} [FloatOps F] : List (HloOp τ sig (Elt F)) :=
  [ TRef.unary (TRef.of (T := ⟨S_, .f32⟩) main_cst_12) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_v73) (TRef.of (T := ⟨S50000, .f32⟩) main_v74) maximumf ]
abbrev sCat2 {F : FTy → Type} [FloatOps F] : List (HloOp τ sig (Elt F)) :=
  [ unary main_v74 main_v75 (broadcastInDim S50000x1 ![0] bcast_S50000_S50000x1_0 : (⟨S50000, .f32⟩ : BufTy).Contents (Elt F) → (⟨S50000x1, .f32⟩ : BufTy).Contents (Elt F)),
    unary main_v75 main_v76 (broadcastInDim S50000x128 ![0, 1] bcast_S50000x1_S50000x128_0_1 : (⟨S50000x1, .f32⟩ : BufTy).Contents (Elt F) → (⟨S50000x128, .f32⟩ : BufTy).Contents (Elt F)),
    binary main_v70 main_v76 main_v77 (Host.divf : (⟨S50000x128, .f32⟩ : BufTy).Contents (Elt F) → (⟨S50000x128, .f32⟩ : BufTy).Contents (Elt F) → (⟨S50000x128, .f32⟩ : BufTy).Contents (Elt F)),
    binary main_v57 main_v77 main_v78 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]
abbrev sLin2 {F : FTy → Type} [FloatOps F] : List (HloOp τ sig (Elt F)) :=
  [ unary main_arg7 main_v79 ((transpose S256x64 [1, 0] · transposes_S64x256_S256x64_1_0) : (⟨S64x256, .f32⟩ : BufTy).Contents (Elt F) → (⟨S256x64, .f32⟩ : BufTy).Contents (Elt F)),
    binary main_v78 main_v79 main_v80 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg8 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)) ]

set_option maxHeartbeats 1000000 in
theorem a16_2 : StableHlo.after (sA2 (F := Ideal)) U (Proc.devRef .tc main_v70) = sumMsg (U (Proc.devRef .tc main_v57)) (U (Proc.devRef .tc main_v1)) (U (Proc.devRef .tc main_v3)) (U (Proc.devRef .tc main_arg2)) := by
  dsimp only [sA2]
  after_results_simp <;> rfl
set_option maxHeartbeats 1000000 in
theorem a19_2 : StableHlo.after (sA2 (F := Ideal)) U (Proc.devRef .tc main_v73) = sumW (U (Proc.devRef .tc main_v1)) (U (Proc.devRef .tc main_arg2)) := by
  dsimp only [sA2]
  after_results_simp <;> rfl
set_option maxHeartbeats 1000000 in
theorem ac_2 : StableHlo.after (sA2 (F := Ideal)) U (Proc.devRef .tc main_cst_12) = constant (F := Ideal) S_ .f32 0x3F800000#32 := by
  dsimp only [sA2]
  after_results_simp <;> rfl
set_option maxHeartbeats 1000000 in
theorem kA_2 : StableHlo.after (sA2 (F := Ideal)) U (Proc.devRef .tc main_v57) = U (Proc.devRef .tc main_v57) := by
  dsimp only [sA2]
  after_results_simp <;> rfl
set_option maxHeartbeats 1000000 in
theorem cb24_2 : StableHlo.after (sCat2 (F := Ideal)) (StableHlo.after (sClip2 (F := Ideal)) U) (Proc.devRef .tc main_v78)
    = catDiv (U (Proc.devRef .tc main_v57)) (U (Proc.devRef .tc main_v70)) (clipBy (U (Proc.devRef .tc main_cst_12)) (U (Proc.devRef .tc main_v73))) := by
  dsimp only [sClip2, sCat2]
  after_results_simp
  unfold catDiv clipBy
  refine congrArg₂ (fun a b => concatenate S50000x256 1 [⟨S50000x128, a⟩, ⟨S50000x128, b⟩] concatenates_S50000x128_S50000x128_S50000x256_d1) ?_ ?_ <;> (after_results_simp <;> rfl)
set_option maxHeartbeats 1000000 in
theorem lin29_2 : StableHlo.after (sLin2 (F := Ideal)) U (Proc.devRef .tc main_v83) = refLin (U (Proc.devRef .tc main_v78)) (U (Proc.devRef .tc main_arg7)) (U (Proc.devRef .tc main_arg8)) := by
  dsimp only [sLin2]
  after_results_simp <;> rfl

set_option maxHeartbeats 1000000 in
theorem kW_2_main_arg7 : StableHlo.after (sCat2 (F := Ideal)) (StableHlo.after (sClip2 (F := Ideal)) (StableHlo.after (sA2 (F := Ideal)) U)) (Proc.devRef .tc main_arg7) = U (Proc.devRef .tc main_arg7) := by
  dsimp only [sA2, sClip2, sCat2]
  after_results_simp <;> rfl
set_option maxHeartbeats 1000000 in
theorem kW_2_main_arg8 : StableHlo.after (sCat2 (F := Ideal)) (StableHlo.after (sClip2 (F := Ideal)) (StableHlo.after (sA2 (F := Ideal)) U)) (Proc.devRef .tc main_arg8) = U (Proc.devRef .tc main_arg8) := by
  dsimp only [sA2, sClip2, sCat2]
  after_results_simp <;> rfl

/-- Layer 2 as a whole: its result buffer holds the printed layer of what its input buffers held. -/
theorem layer2 : StableHlo.after (sLin2 (F := Ideal)) (StableHlo.after (sCat2 (F := Ideal)) (StableHlo.after (sClip2 (F := Ideal)) (StableHlo.after (sA2 (F := Ideal)) U))) (Proc.devRef .tc main_v83)
    = refLin (aggRaw (U (Proc.devRef .tc main_v57)) (U (Proc.devRef .tc main_v1)) (U (Proc.devRef .tc main_v3)) (U (Proc.devRef .tc main_arg2))) (U (Proc.devRef .tc main_arg7)) (U (Proc.devRef .tc main_arg8)) := by
  rw [lin29_2, cb24_2, kW_2_main_arg7, kW_2_main_arg8, kA_2, a16_2, ac_2, a19_2]
  rfl

/-! ## The line is its stretches in order -/

set_option maxRecDepth 8192 in
theorem ops_split : (ops (F := Ideal)) = (sA0 (F := Ideal)) ++ (sClip0 (F := Ideal)) ++ (sCat0 (F := Ideal)) ++ (sLin0 (F := Ideal)) ++ (sRelu0 (F := Ideal)) ++ (sA1 (F := Ideal)) ++ (sClip1 (F := Ideal)) ++ (sCat1 (F := Ideal)) ++ (sLin1 (F := Ideal)) ++ (sRelu1 (F := Ideal)) ++ (sA2 (F := Ideal)) ++ (sClip2 (F := Ideal)) ++ (sCat2 (F := Ideal)) ++ (sLin2 (F := Ideal)) := rfl

theorem after_ops : StableHlo.after (ops (F := Ideal)) U = StableHlo.after (sLin2 (F := Ideal)) (StableHlo.after (sCat2 (F := Ideal)) (StableHlo.after (sClip2 (F := Ideal)) (StableHlo.after (sA2 (F := Ideal)) (StableHlo.after (sRelu1 (F := Ideal)) (StableHlo.after (sLin1 (F := Ideal)) (StableHlo.after (sCat1 (F := Ideal)) (StableHlo.after (sClip1 (F := Ideal)) (StableHlo.after (sA1 (F := Ideal)) (StableHlo.after (sRelu0 (F := Ideal)) (StableHlo.after (sLin0 (F := Ideal)) (StableHlo.after (sCat0 (F := Ideal)) (StableHlo.after (sClip0 (F := Ideal)) (StableHlo.after (sA0 (F := Ideal)) U))))))))))))) := by
  rw [ops_split]
  simp only [Idealize.ShloMosaic.StableHlo.after_append]

/-! ## The result and the arguments -/

/-- The result buffer after the line: `net` of what the argument buffers held. -/
theorem result_eq : StableHlo.after (ops (F := Ideal)) U (Proc.devRef .tc main_v83)
    = net (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) := by
  rw [after_ops, layer2, layer1, layer0,
    pass1_main_v1, pass0_main_v1, pass1_main_v3, pass0_main_v3, pass1_main_arg2, pass0_main_arg2,
    pass1_main_arg7, pass0_main_arg7, pass1_main_arg8, pass0_main_arg8, pass0_main_arg5, pass0_main_arg6]
  exact ref_net _ _ _ _ _ _ _ _ _

set_option maxHeartbeats 4000000 in
/-- No operation writes argument 0. -/
theorem kept_arg0 : StableHlo.after (ops (F := Ideal)) U (Proc.devRef .tc main_arg0) = U (Proc.devRef .tc main_arg0) := by
  dsimp only [ops]
  after_results_simp <;> rfl
set_option maxHeartbeats 4000000 in
/-- No operation writes argument 1. -/
theorem kept_arg1 : StableHlo.after (ops (F := Ideal)) U (Proc.devRef .tc main_arg1) = U (Proc.devRef .tc main_arg1) := by
  dsimp only [ops]
  after_results_simp <;> rfl
set_option maxHeartbeats 4000000 in
/-- No operation writes argument 2. -/
theorem kept_arg2 : StableHlo.after (ops (F := Ideal)) U (Proc.devRef .tc main_arg2) = U (Proc.devRef .tc main_arg2) := by
  dsimp only [ops]
  after_results_simp <;> rfl
set_option maxHeartbeats 4000000 in
/-- No operation writes argument 3. -/
theorem kept_arg3 : StableHlo.after (ops (F := Ideal)) U (Proc.devRef .tc main_arg3) = U (Proc.devRef .tc main_arg3) := by
  dsimp only [ops]
  after_results_simp <;> rfl
set_option maxHeartbeats 4000000 in
/-- No operation writes argument 4. -/
theorem kept_arg4 : StableHlo.after (ops (F := Ideal)) U (Proc.devRef .tc main_arg4) = U (Proc.devRef .tc main_arg4) := by
  dsimp only [ops]
  after_results_simp <;> rfl
set_option maxHeartbeats 4000000 in
/-- No operation writes argument 5. -/
theorem kept_arg5 : StableHlo.after (ops (F := Ideal)) U (Proc.devRef .tc main_arg5) = U (Proc.devRef .tc main_arg5) := by
  dsimp only [ops]
  after_results_simp <;> rfl
set_option maxHeartbeats 4000000 in
/-- No operation writes argument 6. -/
theorem kept_arg6 : StableHlo.after (ops (F := Ideal)) U (Proc.devRef .tc main_arg6) = U (Proc.devRef .tc main_arg6) := by
  dsimp only [ops]
  after_results_simp <;> rfl
set_option maxHeartbeats 4000000 in
/-- No operation writes argument 7. -/
theorem kept_arg7 : StableHlo.after (ops (F := Ideal)) U (Proc.devRef .tc main_arg7) = U (Proc.devRef .tc main_arg7) := by
  dsimp only [ops]
  after_results_simp <;> rfl
set_option maxHeartbeats 4000000 in
/-- No operation writes argument 8. -/
theorem kept_arg8 : StableHlo.after (ops (F := Ideal)) U (Proc.devRef .tc main_arg8) = U (Proc.devRef .tc main_arg8) := by
  dsimp only [ops]
  after_results_simp <;> rfl

/-- On every device, from any memory with zero counters: every weakly fair execution of @main terminates with the
    result at `net` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v83) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v83).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _)⟩)
    (run_seq scopedRefs_eq scopedSems_eq defs main (fun _ => ops (F := Ideal)) main_eq (fun _ => ops_sub) m ρ)

end Cert.Sage.RefRun

end
-- ==== Proof.lean ====
/-
  Three GraphSAGE layers on a graph of 50000 nodes and 800000 weighted edges: the Pallas kernel against its jnp
  reference, over the extended reals.

  Each layer takes the node features h to  relu([h | A h] · Wᵀ + b)  (the last layer without relu), A h being the
  weighted mean of h over incoming edges, with the degree clipped below at one.  Both programs compute [h | A h] by
  the same host operations; the kernel then multiplies blocks of 2000 rows by Wᵀ on the matrix unit into a zero
  accumulator and adds the bias row, where the reference applies one `dot_general` to the whole matrix and adds the
  bias spread over the rows.  Entry by entry both are  Σ_k [h | A h][i,k] · Wᵀ[k,j] + b[j], the same finite sum of
  products of extended reals (narrowing to bf16 is the identity there), so the two results are one function `net` of
  the nine arguments — `Cert.Sage.net` in Proof/Layers.lean — with no use of the inputs' finiteness.

  The kernel's side: the run with the result buffer in its post (Proof/KernelRun.lean), each pallas_call's result
  array as a function of its operands at entry (Proof/Region0–2.lean over the bodies' values in Proof/Body.lean), the
  operands at entry read off the host operations (Proof/HostK0–2.lean), composed in Proof/KernelValue.lean.  The
  reference's side: its run read stretch by stretch (Proof/RefRun.lean).  The word-level kernel is only framed; the
  idealization rewrote nothing, so `preserves` is trivial.
-/
import proofs.«166120_j80522046866010_1_alg».proof.Defs
import proofs.«166120_j80522046866010_1_alg».proof.Proof.Gen.Kernel
import proofs.«166120_j80522046866010_1_alg».proof.Proof.Gen.Kernel.Skeleton
import proofs.«166120_j80522046866010_1_alg».proof.Proof.Gen.Kernel.Launch
import proofs.«166120_j80522046866010_1_alg».proof.Proof.Gen.Kernel.Points
import proofs.«166120_j80522046866010_1_alg».proof.Proof.Gen.Kernel.Frame
import proofs.«166120_j80522046866010_1_alg».proof.Proof.Gen.KernelIdeal
import proofs.«166120_j80522046866010_1_alg».proof.Proof.Gen.KernelIdeal.Skeleton
import proofs.«166120_j80522046866010_1_alg».proof.Proof.Gen.KernelIdeal.Launch
import proofs.«166120_j80522046866010_1_alg».proof.Proof.Gen.KernelIdeal.Points
import proofs.«166120_j80522046866010_1_alg».proof.Proof.Gen.KernelIdeal.Frame
import proofs.«166120_j80522046866010_1_alg».proof.Proof.Gen.ReferenceIdeal
import proofs.«166120_j80522046866010_1_alg».proof.Proof.Gen.Pre_finite_inputs
import proofs.«166120_j80522046866010_1_alg».proof.Proof.KernelRun
import proofs.«166120_j80522046866010_1_alg».proof.Proof.KernelValue
import proofs.«166120_j80522046866010_1_alg».proof.Proof.RefRun
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.Sage.RefRun.run m ρ)

/-- From memories agreeing on the arguments both idealized programs end with the result array at `net` of the
    arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Sage.KernelValue.value m ρ c), (h c).2⟩)
      (Cert.Sage.KernelRun.run_out (F := Ideal) m ρ)
  · refine (θ_run Cert.ReferenceIdeal.defs _ _).mono (fun _ h c => ⟨(h c).1.trans ?_, (h c).2⟩)
      (Cert.Sage.RefRun.run m' ρ')
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
